-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x160 : Shape := ⟨2, ![50000, 160]⟩
abbrev S32x48 : Shape := ⟨2, ![32, 48]⟩
abbrev S48 : Shape := ⟨1, ![48]⟩
abbrev S131x128 : Shape := ⟨2, ![131, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x160 : S_.BroadcastsInDim S50000x160 (![] : Fin 0 → Fin S50000x160.rank)
  reducesTo_S50000x160_S_d0_1 : S50000x160.ReducesTo [0, 1] S_
  h_S_ : 0 < S_.numel
  bcast_S_S32x48 : S_.BroadcastsInDim S32x48 (![] : Fin 0 → Fin S32x48.rank)
  reducesTo_S32x48_S_d0_1 : S32x48.ReducesTo [0, 1] S_
  bcast_S_S48 : S_.BroadcastsInDim S48 (![] : Fin 0 → Fin S48.rank)
  reducesTo_S48_S_d0 : S48.ReducesTo [0] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_v13 : IVec S_ 1) (main_v16 : IVec S131x128 1) : IVec S_ 1 :=
  let main_c_5 : IVec S_ 1 := constantI S_ 1 1#1
  let main_v17 : IVec S_ 1 := (fun x v => Host.reduce IntOp.andi x v reducesTo_S131x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x160 .f32) (main_arg1 : FVec F S32x48 .f32) (main_arg2 : FVec F S48 .f32) (main_arg3 : FVec F S131x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x160 .f32 := Host.absf main_arg0
  let main_cst : FVec F S_ .f32 := constant S_ .f32 0x7F800000#32
  let main_v1 : FVec F S50000x160 .f32 := broadcastInDim S50000x160 ![] bcast_S_S50000x160 main_cst
  let main_v2 : IVec S50000x160 1 := cmpf .olt main_v0 main_v1
  let main_c : IVec S_ 1 := constantI S_ 1 1#1
  let main_v3 : IVec S_ 1 := (fun x v => Host.reduce IntOp.andi x v reducesTo_S50000x160_S_d0_1 h_S_) main_v2 main_c
  let main_v4 : FVec F S32x48 .f32 := Host.absf main_arg1
  let main_cst_0 : FVec F S_ .f32 := constant S_ .f32 0x7F800000#32
  let main_v5 : FVec F S32x48 .f32 := broadcastInDim S32x48 ![] bcast_S_S32x48 main_cst_0
  let main_v6 : IVec S32x48 1 := cmpf .olt main_v4 main_v5
  let main_c_1 : IVec S_ 1 := constantI S_ 1 1#1
  let main_v7 : IVec S_ 1 := (fun x v => Host.reduce IntOp.andi x v reducesTo_S32x48_S_d0_1 h_S_) main_v6 main_c_1
  let main_v8 : IVec S_ 1 := andi main_v3 main_v7
  let main_v9 : FVec F S48 .f32 := Host.absf main_arg2
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S131x128 .f32 := Host.absf main_arg3
  let main_cst_4 : FVec F S_ .f32 := constant S_ .f32 0x7F800000#32
  let main_v15 : FVec F S131x128 .f32 := broadcastInDim S131x128 ![] bcast_S_S131x128 main_cst_4
  let main_v16 : IVec S131x128 1 := cmpf .olt main_v14 main_v15
  fn_part1 (F := F) main_arg4 main_arg5 main_arg6 main_arg7 main_arg8 main_v13 main_v16
-- ==== Kernel.lean ====
abbrev S50000x160 : Shape := ⟨2, ![50000, 160]⟩
abbrev S32x48 : Shape := ⟨2, ![32, 48]⟩
abbrev S48 : Shape := ⟨1, ![48]⟩
abbrev S131x128 : Shape := ⟨2, ![131, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S3x128 : Shape := ⟨2, ![3, 128]⟩
abbrev S16x16 : Shape := ⟨2, ![16, 16]⟩
abbrev S_ : Shape := ⟨0, ![]⟩
abbrev S16x1x16x1 : Shape := ⟨4, ![16, 1, 16, 1]⟩
abbrev S1x3x1x128 : Shape := ⟨4, ![1, 3, 1, 128]⟩
abbrev S16x3x16x128 : Shape := ⟨4, ![16, 3, 16, 128]⟩
abbrev S48x2048 : Shape := ⟨2, ![48, 2048]⟩
abbrev S50000x1024 : Shape := ⟨2, ![50000, 1024]⟩
abbrev S50000x48 : Shape := ⟨2, ![50000, 48]⟩
abbrev S1000x160 : Shape := ⟨2, ![1000, 160]⟩
abbrev S1000x1024 : Shape := ⟨2, ![1000, 1024]⟩
abbrev S1000x48 : Shape := ⟨2, ![1000, 48]⟩
abbrev S1000x32 : Shape := ⟨2, ![1000, 32]⟩
abbrev S1000x128 : Shape := ⟨2, ![1000, 128]⟩
abbrev S1x48 : Shape := ⟨2, ![1, 48]⟩
abbrev S1000x2048 : Shape := ⟨2, ![1000, 2048]⟩
abbrev S1x128 : Shape := ⟨2, ![1, 128]⟩
abbrev S1000x64 : Shape := ⟨2, ![1000, 64]⟩
abbrev S1x64 : Shape := ⟨2, ![1, 64]⟩
abbrev S800000x64 : Shape := ⟨2, ![800000, 64]⟩
abbrev S800000x3 : Shape := ⟨2, ![800000, 3]⟩
abbrev S50000 : Shape := ⟨1, ![50000]⟩
abbrev S50000x16 : Shape := ⟨2, ![50000, 16]⟩
abbrev S800000 : Shape := ⟨1, ![800000]⟩

abbrev nBuf : Space → Nat
  | .hbm => 31
  | .vmem => 15
  | .smem => 0
  | _ => 0

abbrev bufTy : (tb : Table) → Fin (tcTables nBuf tb) → BufTy
  | .hbm, ⟨0, _⟩ => ⟨S50000x160, .f32⟩
  | .hbm, ⟨1, _⟩ => ⟨S32x48, .f32⟩
  | .hbm, ⟨2, _⟩ => ⟨S48, .f32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S3x128, .f32⟩
  | .hbm, ⟨10, _⟩ => ⟨S128x128, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x1x16x1, .f32⟩
  | .hbm, ⟨19, _⟩ => ⟨S1x3x1x128, .f32⟩
  | .hbm, ⟨20, _⟩ => ⟨S16x3x16x128, .f32⟩
  | .hbm, ⟨21, _⟩ => ⟨S16x3x16x128, .f32⟩
  | .hbm, ⟨22, _⟩ => ⟨S16x3x16x128, .f32⟩
  | .hbm, ⟨23, _⟩ => ⟨S48x2048, .f32⟩
  | .hbm, ⟨24, _⟩ => ⟨S50000x1024, .f32⟩
  | .hbm, ⟨25, _⟩ => ⟨S50000x48, .f32⟩
  | .hbm, ⟨26, _⟩ => ⟨S800000x64, .f32⟩
  | .hbm, ⟨27, _⟩ => ⟨S800000x3, .f32⟩
  | .hbm, ⟨28, _⟩ => ⟨S50000, .i32⟩
  | .hbm, ⟨29, _⟩ => ⟨S50000x16, .i32⟩
  | .hbm, ⟨30, _⟩ => ⟨S800000, .i32⟩
  | .local _ .vmem, ⟨0, _⟩ => ⟨S1000x160, .f32⟩
  | .local _ .vmem, ⟨1, _⟩ => ⟨S1000x160, .f32⟩
  | .local _ .vmem, ⟨2, _⟩ => ⟨S32x48, .f32⟩
  | .local _ .vmem, ⟨3, _⟩ => ⟨S48, .f32⟩
  | .local _ .vmem, ⟨4, _⟩ => ⟨S48x2048, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S1000x1024, .f32⟩
  | .local _ .vmem, ⟨12, _⟩ => ⟨S1000x1024, .f32⟩
  | .local _ .vmem, ⟨13, _⟩ => ⟨S1000x48, .f32⟩
  | .local _ .vmem, ⟨14, _⟩ => ⟨S1000x48, .f32⟩
  | _, _ => ⟨S50000x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S131x128_S3x128_0_0 : S131x128.Slices ![0, 0] S3x128
  slices_S131x128_S128x128_3_0 : S131x128.Slices ![3, 0] S128x128
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S3x128_S1x3x1x128_1_3 : S3x128.BroadcastsInDim S1x3x1x128 (![1, 3] : Fin 2 → Fin S1x3x1x128.rank)
  bcast_S16x1x16x1_S16x3x16x128_0_1_2_3 : S16x1x16x1.BroadcastsInDim S16x3x16x128 (![0, 1, 2, 3] : Fin 4 → Fin S16x3x16x128.rank)
  bcast_S1x3x1x128_S16x3x16x128_0_1_2_3 : S1x3x1x128.BroadcastsInDim S16x3x16x128 (![0, 1, 2, 3] : Fin 4 → Fin S16x3x16x128.rank)
  shapeCasts_S16x3x16x128_S48x2048 : S16x3x16x128.ShapeCasts S48x2048
  inb_S1000x160_S1000x160_0_0 : ∀ a, (![0, 0] : Fin 2 → Nat) a + S1000x160.size a ≤ S1000x160.size a
  h_S1000x160 : 0 < S1000x160.numel
  slices_S1000x160_o0_0_S1000x32 : S1000x160.Slices ![0, 0] S1000x32
  slices_S1000x160_o0_32_S1000x128 : S1000x160.Slices ![0, 32] S1000x128
  inb_S32x48_S32x48_0_0 : ∀ a, (![0, 0] : Fin 2 → Nat) a + S32x48.size a ≤ S32x48.size a
  h_S32x48 : 0 < S32x48.numel
  bitsLt_bf16_f32 : FTy.bits .bf16 < FTy.bits .f32
  inb_S48_S48_0 : ∀ a, (![0] : Fin 1 → Nat) a + S48.size a ≤ S48.size a
  h_S48 : 0 < S48.numel
  shapeCasts_S48_S1x48 : S48.ShapeCasts S1x48
  broadcasts_S1x48_S1000x48 : S1x48.Broadcasts S1000x48
  inb_S1000x48_S1000x48_0_0 : ∀ a, (![0, 0] : Fin 2 → Nat) a + S1000x48.size a ≤ S1000x48.size a
  h_S1000x48 : 0 < S1000x48.numel
  inb_S48x2048_S48x2048_0_0 : ∀ a, (![0, 0] : Fin 2 → Nat) a + S48x2048.size a ≤ S48x2048.size a
  h_S48x2048 : 0 < S48x2048.numel
  shapeCasts_S48x2048_S48x2048 : S48x2048.ShapeCasts S48x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S64_S64_0 : ∀ a, (![0] : Fin 1 → Nat) a + S64.size a ≤ S64.size a
  h_S64 : 0 < S64.numel
  inb_S128x64_S128x64_0_0 : ∀ a, (![0, 0] : Fin 2 → Nat) a + S128x64.size a ≤ S128x64.size a
  h_S128x64 : 0 < S128x64.numel
  slices_S1000x2048_o0_0_S1000x128 : S1000x2048.Slices ![0, 0] S1000x128
  shapeCasts_S128_S1x128 : S128.ShapeCasts S1x128
  broadcasts_S1x128_S1000x128 : S1x128.Broadcasts S1000x128
  shapeCasts_S64_S1x64 : S64.ShapeCasts S1x64
  broadcasts_S1x64_S1000x64 : S1x64.Broadcasts S1000x64
  slices_S1000x2048_o0_128_S1000x128 : S1000x2048.Slices ![0, 128] S1000x128
  concatenates_S1000x64_S1000x64_S1000x128_d1 : Shape.Concatenates [S1000x64, S1000x64] S1000x128 1
  inb_S1000x1024_S1000x128_0_0 : ∀ a, (![0, 0] : Fin 2 → Nat) a + S1000x128.size a ≤ S1000x1024.size a
  h_S1000x128 : 0 < S1000x128.numel
  slices_S1000x2048_o0_256_S1000x128 : S1000x2048.Slices ![0, 256] S1000x128
  slices_S1000x2048_o0_384_S1000x128 : S1000x2048.Slices ![0, 384] S1000x128
  inb_S1000x1024_S1000x128_0_128 : ∀ a, (![0, 128] : Fin 2 → Nat) a + S1000x128.size a ≤ S1000x1024.size a
  slices_S1000x2048_o0_512_S1000x128 : S1000x2048.Slices ![0, 512] S1000x128
  slices_S1000x2048_o0_640_S1000x128 : S1000x2048.Slices ![0, 640] S1000x128
  inb_S1000x1024_S1000x128_0_256 : ∀ a, (![0, 256] : Fin 2 → Nat) a + S1000x128.size a ≤ S1000x1024.size a
  slices_S1000x2048_o0_768_S1000x128 : S1000x2048.Slices ![0, 768] S1000x128
  slices_S1000x2048_o0_896_S1000x128 : S1000x2048.Slices ![0, 896] S1000x128
  inb_S1000x1024_S1000x128_0_384 : ∀ a, (![0, 384] : Fin 2 → Nat) a + S1000x128.size a ≤ S1000x1024.size a
  slices_S1000x2048_o0_1024_S1000x128 : S1000x2048.Slices ![0, 1024] S1000x128
  slices_S1000x2048_o0_1152_S1000x128 : S1000x2048.Slices ![0, 1152] S1000x128
  inb_S1000x1024_S1000x128_0_512 : ∀ a, (![0, 512] : Fin 2 → Nat) a + S1000x128.size a ≤ S1000x1024.size a
  slices_S1000x2048_o0_1280_S1000x128 : S1000x2048.Slices ![0, 1280] S1000x128
  slices_S1000x2048_o0_1408_S1000x128 : S1000x2048.Slices ![0, 1408] S1000x128
  inb_S1000x1024_S1000x128_0_640 : ∀ a, (![0, 640] : Fin 2 → Nat) a + S1000x128.size a ≤ S1000x1024.size a
  slices_S1000x2048_o0_1536_S1000x128 : S1000x2048.Slices ![0, 1536] S1000x128
  slices_S1000x2048_o0_1664_S1000x128 : S1000x2048.Slices ![0, 1664] S1000x128
  inb_S1000x1024_S1000x128_0_768 : ∀ a, (![0, 768] : Fin 2 → Nat) a + S1000x128.size a ≤ S1000x1024.size a
  slices_S1000x2048_o0_1792_S1000x128 : S1000x2048.Slices ![0, 1792] S1000x128
  slices_S1000x2048_o0_1920_S1000x128 : S1000x2048.Slices ![0, 1920] S1000x128
  inb_S1000x1024_S1000x128_0_896 : ∀ a, (![0, 896] : Fin 2 → Nat) a + S1000x128.size a ≤ S1000x1024.size a
  shapeCasts_S50000x1024_S800000x64 : S50000x1024.ShapeCasts S800000x64
  shapeCasts_S50000x48_S800000x3 : S50000x48.ShapeCasts S800000x3
  bcast_S50000_S50000x16_0 : S50000.BroadcastsInDim S50000x16 (![0] : Fin 1 → Fin S50000x16.rank)
  shapeCasts_S50000x16_S800000 : S50000x16.ShapeCasts S800000
  dot_S1000x32_S32x48_S1000x48_1_0_0_1_n_n_wf : DotDims.WF S1000x32 S32x48 S1000x48 [1] [0] [0] [1] [] []
  dot_S1000x48_S48x2048_S1000x2048_1_0_0_1_n_n_wf : DotDims.WF S1000x48 S48x2048 S1000x2048 [1] [0] [0] [1] [] []
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x160.size a ≤ S50000x160.size a
  hwx0_0 : ∀ i : grid0.Coords, EltTy.bits .f32 = 32 ∨ (Rect.block (s := S50000x160) S1000x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x48.size a ≤ S32x48.size a
  hwx0_1 : ∀ i : grid0.Coords, EltTy.bits .f32 = 32 ∨ (Rect.block (s := S32x48) S32x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48.size a ≤ S48.size a
  hwx0_2 : ∀ i : grid0.Coords, EltTy.bits .f32 = 32 ∨ (Rect.block (s := S48) S48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x2048.size a ≤ S48x2048.size a
  hwx0_3 : ∀ i : grid0.Coords, EltTy.bits .f32 = 32 ∨ (Rect.block (s := S48x2048) S48x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x1024.size a ≤ S50000x1024.size a
  hwx0_10 : ∀ i : grid0.Coords, EltTy.bits .f32 = 32 ∨ (Rect.block (s := S50000x1024) S1000x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x48.size a ≤ S50000x48.size a
  hwx0_11 : ∀ i : grid0.Coords, EltTy.bits .f32 = 32 ∨ (Rect.block (s := S50000x48) S1000x48.size (cc0_transform_11 i) (hinb0_11 i)).WholeWords (EltTy.packing .f32)

variable [Facts₀]

def dot_S1000x32_S32x48_S1000x48_1_0_0_1_n_n : DotDims S1000x32 S32x48 S1000x48 where
  lhsContracting := [1]
  rhsContracting := [0]
  lhsNonContracting := [0]
  rhsNonContracting := [1]
  lhsBatch := []
  rhsBatch := []
  wf := dot_S1000x32_S32x48_S1000x48_1_0_0_1_n_n_wf
def dot_S1000x48_S48x2048_S1000x2048_1_0_0_1_n_n : DotDims S1000x48 S48x2048 S1000x2048 where
  lhsContracting := [1]
  rhsContracting := [0]
  lhsNonContracting := [0]
  rhsNonContracting := [1]
  lhsBatch := []
  rhsBatch := []
  wf := dot_S1000x48_S48x2048_S1000x2048_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S1000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S48x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S1000x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S1000x48.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x160 : Shape := ⟨2, ![50000, 160]⟩
abbrev S32x48 : Shape := ⟨2, ![32, 48]⟩
abbrev S48 : Shape := ⟨1, ![48]⟩
abbrev S131x128 : Shape := ⟨2, ![131, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x32 : Shape := ⟨2, ![50000, 32]⟩
abbrev S50000x128 : Shape := ⟨2, ![50000, 128]⟩
abbrev S50000 : Shape := ⟨1, ![50000]⟩
abbrev S50000x48 : Shape := ⟨2, ![50000, 48]⟩
abbrev S1x48 : Shape := ⟨2, ![1, 48]⟩
abbrev S800000x3 : Shape := ⟨2, ![800000, 3]⟩
abbrev S50000x16 : Shape := ⟨2, ![50000, 16]⟩
abbrev S800000 : Shape := ⟨1, ![800000]⟩
abbrev S50000x16x128 : Shape := ⟨3, ![50000, 16, 128]⟩
abbrev S800000x128 : Shape := ⟨2, ![800000, 128]⟩
abbrev S800000x131 : Shape := ⟨2, ![800000, 131]⟩
abbrev S1x128 : Shape := ⟨2, ![1, 128]⟩
abbrev S_ : Shape := ⟨0, ![]⟩
abbrev S800000x64 : Shape := ⟨2, ![800000, 64]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S50000x160, .f32⟩
  | .hbm, ⟨1, _⟩ => ⟨S32x48, .f32⟩
  | .hbm, ⟨2, _⟩ => ⟨S48, .f32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000x32, .f32⟩
  | .hbm, ⟨10, _⟩ => ⟨S50000x128, .f32⟩
  | .hbm, ⟨11, _⟩ => ⟨S50000, .i32⟩
  | .hbm, ⟨12, _⟩ => ⟨S50000x48, .f32⟩
  | .hbm, ⟨13, _⟩ => ⟨S1x48, .f32⟩
  | .hbm, ⟨14, _⟩ => ⟨S50000x48, .f32⟩
  | .hbm, ⟨15, _⟩ => ⟨S50000x48, .f32⟩
  | .hbm, ⟨16, _⟩ => ⟨S50000x48, .f32⟩
  | .hbm, ⟨17, _⟩ => ⟨S800000x3, .f32⟩
  | .hbm, ⟨18, _⟩ => ⟨S50000x16, .i32⟩
  | .hbm, ⟨19, _⟩ => ⟨S800000, .i32⟩
  | .hbm, ⟨20, _⟩ => ⟨S50000x16x128, .f32⟩
  | .hbm, ⟨21, _⟩ => ⟨S800000x128, .f32⟩
  | .hbm, ⟨22, _⟩ => ⟨S800000x131, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S800000x3, .f32⟩
  | .hbm, ⟨46, _⟩ => ⟨S800000x3, .f32⟩
  | _, _ => ⟨S50000x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call2_cst : Ref sig .tc := ⟨.hbm, 41, rfl⟩
abbrev main_call2_v0 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  slices_S50000x160_S50000x32_0_0 : S50000x160.Slices ![0, 0] S50000x32
  slices_S50000x160_S50000x128_0_32 : S50000x160.Slices ![0, 32] S50000x128
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  shapeCasts_S50000x48_S800000x3 : S50000x48.ShapeCasts S800000x3
  bcast_S50000_S50000x16_0 : S50000.BroadcastsInDim S50000x16 (![0] : Fin 1 → Fin S50000x16.rank)
  shapeCasts_S50000x16_S800000 : S50000x16.ShapeCasts S800000
  bcast_S50000x128_S50000x16x128_0_2 : S50000x128.BroadcastsInDim S50000x16x128 (![0, 2] : Fin 2 → Fin S50000x16x128.rank)
  shapeCasts_S50000x16x128_S800000x128 : S50000x16x128.ShapeCasts S800000x128
  concatenates_S800000x3_S800000x128_S800000x131_d1 : Shape.Concatenates [S800000x3, S800000x128] S800000x131 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000x3 : S_.BroadcastsInDim S800000x3 (![] : Fin 0 → Fin S800000x3.rank)
  dot_S50000x32_S32x48_S50000x48_1_0_0_1_n_n_wf : DotDims.WF S50000x32 S32x48 S50000x48 [1] [0] [0] [1] [] []
  dot_S800000x131_S131x128_S800000x128_1_0_0_1_n_n_wf : DotDims.WF S800000x131 S131x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []

variable [Facts₀]

def dot_S50000x32_S32x48_S50000x48_1_0_0_1_n_n : DotDims S50000x32 S32x48 S50000x48 where
  lhsContracting := [1]
  rhsContracting := [0]
  lhsNonContracting := [0]
  rhsNonContracting := [1]
  lhsBatch := []
  rhsBatch := []
  wf := dot_S50000x32_S32x48_S50000x48_1_0_0_1_n_n_wf
def dot_S800000x131_S131x128_S800000x128_1_0_0_1_n_n : DotDims S800000x131 S131x128 S800000x128 where
  lhsContracting := [1]
  rhsContracting := [0]
  lhsNonContracting := [0]
  rhsNonContracting := [1]
  lhsBatch := []
  rhsBatch := []
  wf := dot_S800000x131_S131x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
/-
  The mathematics both programs compute, index by index over the extended reals.

  A point is a row `x : Fin 160 → EReal` of the feature array: its first 32 entries are decoded into 16 neighbours'
  relative coordinates, `rel j = tanh (∑ i, x i · Wn i j + bn j)` for `j < 48`, neighbour `k`'s three coordinates at
  `3k, 3k+1, 3k+2`; its last 128 entries are the point's features. The output point of neighbour `k` is `rel (3k+d) · ¼`.
  Neighbour `k`'s row of the first layer's input is the 131-vector `cat k`: its three coordinates, then the features.
  Three dense layers with `max · 0` after each give the 64 output features of the pair (point, neighbour).

  The kernel computes the first layer's pre-activation in another arrangement (`preK`): the 48 coordinates against a
  block-diagonal 48 × 2048 matrix `kron` whose block `(k, k)` is the first three rows of `W1` and whose other blocks are
  zero, plus the features against the remaining 128 rows of `W1`, plus the bias. `preK_eq` is the law joining the two:
  a product with a zero entry is zero on every extended real, so the off-diagonal terms vanish, and a sum over 131
  indices splits into its first 3 and its last 128. Neither step needs a finite entry.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, indexed as the programs' rank-2 arrays are. -/
abbrev Mat (a b : ℕ) := (⟨2, ![a, b]⟩ : Shape).Idx → EReal
/-- A vector of extended reals, indexed as the programs' rank-1 arrays are. -/
abbrev Vct (a : ℕ) := (⟨1, ![a]⟩ : Shape).Idx → EReal

/-- The float zero both programs clamp against. -/
abbrev zero : EReal := Ideal.ofBits .f32 0x00000000#32
/-- The radius ¼ both programs scale the relative coordinates by. -/
abbrev quarter : EReal := Ideal.ofBits .f32 0x3E800000#32

/-- `max x 0`. -/
def relu (x : EReal) : EReal := max x zero

/-- One output of a dense layer on a row: `∑ i, x i · W i j + b j`. -/
def dense {k n : ℕ} (x : Fin k → EReal) (W : Mat k n) (b : Vct n) (j : Fin n) : EReal :=
  (∑ i : Fin k, x i * W (ix2 i j)) + b (ix1 j)

/-- Coordinate `d` of neighbour `k` among the 48 decoded coordinates. -/
def relIdx (k : Fin 16) (d : Fin 3) : Fin 48 := ⟨3 * k.val + d.val, by have := k.isLt; have := d.isLt; omega⟩
/-- Entry `i` of the point part of a row. -/
def ptIdx (i : Fin 32) : Fin 160 := ⟨i.val, by have := i.isLt; omega⟩
/-- Entry `f` of the feature part of a row. -/
def featIdx (f : Fin 128) : Fin 160 := ⟨32 + f.val, by have := f.isLt; omega⟩
/-- Row `d` of `W1`, one of its first three. -/
def w1Top (d : Fin 3) : Fin 131 := ⟨d.val, by have := d.isLt; omega⟩
/-- Row `3 + f` of `W1`. -/
def w1Bot (f : Fin 128) : Fin 131 := ⟨3 + f.val, by have := f.isLt; omega⟩
/-- Column `128 k + c` of the block-diagonal matrix. -/
def bdCol (k : Fin 16) (c : Fin 128) : Fin 2048 := ⟨128 * k.val + c.val, by have := k.isLt; have := c.isLt; omega⟩

@[simp] theorem relIdx_val (k : Fin 16) (d : Fin 3) : (relIdx k d).val = 3 * k.val + d.val := rfl
@[simp] theorem ptIdx_val (i : Fin 32) : (ptIdx i).val = i.val := rfl
@[simp] theorem featIdx_val (f : Fin 128) : (featIdx f).val = 32 + f.val := rfl
@[simp] theorem w1Top_val (d : Fin 3) : (w1Top d).val = d.val := rfl
@[simp] theorem w1Bot_val (f : Fin 128) : (w1Bot f).val = 3 + f.val := rfl
@[simp] theorem bdCol_val (k : Fin 16) (c : Fin 128) : (bdCol k c).val = 128 * k.val + c.val := rfl

section Row

variable (Wn : Mat 32 48) (bn : Vct 48) (W1 : Mat 131 128) (b1 : Vct 128) (W2 : Mat 128 128) (b2 : Vct 128)
  (W3 : Mat 128 64) (b3 : Vct 64) (x : Fin 160 → EReal)

/-- The decoded coordinates of a point: `tanh` of a dense layer on its first 32 entries. -/
def rel (j : Fin 48) : EReal := Ideal.tanh (dense (fun i : Fin 32 => x (ptIdx i)) Wn bn j)

/-- The output point of neighbour `k`: its coordinate `d`, scaled by the radius. -/
def pts (k : Fin 16) (d : Fin 3) : EReal := rel Wn bn x (relIdx k d) * quarter

/-- Neighbour `k`'s row of the first layer's input: its three coordinates, then the point's 128 features. -/
def cat (k : Fin 16) (j : Fin 131) : EReal :=
  if h : j.val < 3 then rel Wn bn x (relIdx k ⟨j.val, h⟩) else x (featIdx ⟨j.val - 3, by have := j.isLt; omega⟩)

/-- The first layer's pre-activation, as the reference arranges it. -/
def pre (k : Fin 16) (c : Fin 128) : EReal := dense (cat Wn bn x k) W1 b1 c

/-- The block-diagonal matrix: entry `(3a+d, 128b+e)` is `W1 d e` when `a = b` and zero otherwise. -/
def kron (j : Fin 48) (n : Fin 2048) : EReal :=
  (if j.val / 3 = n.val / 128 then (1 : EReal) else 0)
    * W1 (ix2 (⟨j.val % 3, by omega⟩ : Fin 131) (⟨n.val % 128, by omega⟩ : Fin 128))

/-- The first layer's pre-activation, as the kernel arranges it. -/
def preK (k : Fin 16) (c : Fin 128) : EReal :=
  ((∑ j : Fin 48, rel Wn bn x j * kron W1 j (bdCol k c))
    + (∑ f : Fin 128, x (featIdx f) * W1 (ix2 (w1Bot f) c))) + b1 (ix1 c)

/-- The three layers from a first pre-activation `p`. -/
def tower (p : Fin 128 → EReal) (c : Fin 64) : EReal :=
  relu (dense (fun c₂ : Fin 128 => relu (dense (fun c₁ : Fin 128 => relu (p c₁)) W2 b2 c₂)) W3 b3 c)

/-- The 64 output features of the pair (point, neighbour `k`). -/
def fc3 (k : Fin 16) (c : Fin 64) : EReal := tower W2 b2 W3 b3 (pre Wn bn W1 b1 x k) c

end Row

section Arrays

variable (X : Mat 50000 160) (Wn : Mat 32 48) (bn : Vct 48) (W1 : Mat 131 128) (b1 : Vct 128) (W2 : Mat 128 128)
  (b2 : Vct 128) (W3 : Mat 128 64) (b3 : Vct 64)

/-- Row `p` of the feature array. -/
def row (p : Fin 50000) : Fin 160 → EReal := fun i => X (ix2 p i)

/-- The point and the neighbour of output row `q = 16 p + k`. -/
def ptOf (q : Fin 800000) : Fin 50000 := ⟨q.val / 16, by have := q.isLt; omega⟩
def nbOf (q : Fin 800000) : Fin 16 := ⟨q.val % 16, by omega⟩

/-- The output features, `[800000, 64]`. -/
def Fc3 : Mat 800000 64 := fun i => fc3 Wn bn W1 b1 W2 b2 W3 b3 (row X (ptOf (i 0))) (nbOf (i 0)) (i 1)
/-- The output points, `[800000, 3]`. -/
def Pts : Mat 800000 3 := fun i => pts Wn bn (row X (ptOf (i 0))) (nbOf (i 0)) (i 1)

end Arrays

end Cert.Spec

end
-- ==== Proof.HostSide.lean ====
/-
  The host operations around the kernel's one region, as values over the extended reals.

  Before the region: the first matrix `W1` (131 × 128) is cut into its first three rows and its last 128; a 16 × 16
  identity matrix is made by comparing a row counter with a column counter and converting the bit to a float; and the
  Kronecker product of the identity with the three rows is formed by broadcasting both to 16 × 3 × 16 × 128,
  multiplying, and re-laying row-major as 48 × 2048: entry `(3a+d, 128b+e)` is `[a = b] · W1 d e`.
  After the region: the two outputs are re-laid row-major, `[50000, 1024] → [800000, 64]` and `[50000, 48] → [800000, 3]`
  (row `q`, column `e` comes from row `q / 16`, column `64 (q % 16) + e`, resp. `3 (q % 16) + d`), and the point numbers
  `0 … 49999` are each repeated 16 times (entry `q` is `q / 16`).
-/
import proofs.«155941_j4294967296690_2_alg».proof.Proof.Gen.KernelIdeal.Frame
import Idealize.ShloMosaic.Lib.Pipeline.Value
import Idealize.ShloMosaic.Lib.ValueIdx
import Idealize.ShloMosaic.Lib.IdealHost
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-! ## The host operations before the region, as terms over the weight argument -/

/-- The 16 × 16 identity matrix as the host builds it: the indicator of equal coordinates, converted to a float. -/
def eye16 : S16x16.Idx → EReal :=
  uitofp (F := Ideal) .f32
    (cmpi .eq (addi (iotaInDim S16x16 32 0) (broadcastInDim S16x16 ![] bcast_S_S16x16 (constantI S_ 32 0#32)))
      (iotaInDim S16x16 32 1))

/-- The Kronecker product of the identity with the first three rows of the weight, as the host builds it. -/
def kronTerm (W : S131x128.Idx → EReal) : S48x2048.Idx → EReal :=
  shapeCast S48x2048
    (mulf (F := Ideal) (φ := .f32)
      (broadcastInDim S16x3x16x128 ![0, 1, 2, 3] bcast_S16x1x16x1_S16x3x16x128_0_1_2_3
        (broadcastInDim S16x1x16x1 ![0, 2] bcast_S16x16_S16x1x16x1_0_2 eye16))
      (broadcastInDim S16x3x16x128 ![0, 1, 2, 3] bcast_S1x3x1x128_S16x3x16x128_0_1_2_3
        (broadcastInDim S1x3x1x128 ![1, 3] bcast_S3x128_S1x3x1x128_1_3
          (extractStridedSlice S3x128 ![0, 0] W slices_S131x128_S3x128_0_0))))
    shapeCasts_S16x3x16x128_S48x2048

/-- What the region finds in the block-diagonal weight's buffer: the host's term over the weight argument. -/
theorem V_main_v8_eq :
    (V m c main_v8 : S48x2048.Idx → EReal) = kronTerm (m ((c : Thread nD τ).loc main_arg3)) := by
  dsimp only [Gen.V, Gen.V0]
  simp only [Gen.hostOps0, Gen.hostOps0_1, List.flatten_cons, List.flatten_nil, List.append_nil, List.cons_append,
    List.nil_append]
  after_results_simp
  rfl

/-- What the region finds in the lower slice's buffer. -/
theorem V_main_v1_eq :
    (V m c main_v1 : S128x128.Idx → EReal)
      = extractStridedSlice S128x128 ![3, 0] (m ((c : Thread nD τ).loc main_arg3)) slices_S131x128_S128x128_3_0 := by
  dsimp only [Gen.V, Gen.V0]
  simp only [Gen.hostOps0, Gen.hostOps0_1, List.flatten_cons, List.flatten_nil, List.append_nil, List.cons_append,
    List.nil_append]
  after_results_simp

/-! ## The terms read at an index -/

/-- The identity matrix at (a, b): one on the diagonal, zero off it. -/
theorem eye16_apply (a b : Fin 16) : eye16 (ix2 a b) = if a.val = b.val then (1 : EReal) else 0 := by
  have ha : a.val < 16 := a.isLt
  have hb : b.val < 16 := b.isLt
  show (((IntOp.cmpi .eq (IntOp.addi (BitVec.ofNat 32 a.val) 0#32) (BitVec.ofNat 32 b.val)).toNat : ℝ) : EReal) = _
  by_cases h : a.val = b.val
  · rw [if_pos h, h]
    simp [IntOp.cmpi, IntOp.addi]
  · rw [if_neg h]
    have hne : ¬ (BitVec.ofNat 32 a.val = BitVec.ofNat 32 b.val) := by
      intro e
      apply h
      have e' := congrArg BitVec.toNat e
      rw [BitVec.toNat_ofNat, BitVec.toNat_ofNat] at e'
      omega
    simp [IntOp.cmpi, IntOp.addi, hne]

/-- The host's Kronecker term at row j, column n: the weight's row j mod 3, column n mod 128, on the diagonal
    blocks (j / 3 = n / 128), zero elsewhere. -/
theorem kronTerm_apply (W : S131x128.Idx → EReal) (j : Fin 48) (n : Fin 2048) :
    kronTerm W (ix2 j n)
      = (if j.val / 3 = n.val / 128 then (1 : EReal) else 0)
          * W (ix2 (⟨j.val % 3, by omega⟩ : Fin 131) (⟨n.val % 128, by omega⟩ : Fin 128)) := by
  have hj : j.val < 48 := j.isLt
  have hn : n.val < 2048 := n.isLt
  unfold kronTerm
  -- the reshape: row 3a + d, column 128b + e is position (a, d, b, e)
  refine (shapeCast_apply _ shapeCasts_S16x3x16x128_S48x2048 (ix2 j n)
    (ix4 (⟨j.val / 3, by omega⟩ : Fin 16) (⟨j.val % 3, by omega⟩ : Fin 3) (⟨n.val / 128, by omega⟩ : Fin 16)
      (⟨n.val % 128, by omega⟩ : Fin 128)) ?_).trans ?_
  · rw [Shape.rowMajor_val_four, Shape.rowMajor_val_two]
    show (((j.val / 3) * 3 + j.val % 3) * 16 + n.val / 128) * 128 + n.val % 128 = j.val * 2048 + n.val
    omega
  -- the product, pointwise
  rw [mulf_apply]
  congr 1
  · -- the identity's two broadcasts
    refine (broadcastInDim_apply _ bcast_S16x1x16x1_S16x3x16x128_0_1_2_3 _ _
      (ix4 (⟨j.val / 3, by omega⟩ : Fin 16) (0 : Fin 1) (⟨n.val / 128, by omega⟩ : Fin 16) (0 : Fin 1))
      (fun a => match a with | ⟨0, _⟩ => rfl | ⟨1, _⟩ => rfl | ⟨2, _⟩ => rfl | ⟨3, _⟩ => rfl)).trans ?_
    refine (broadcastInDim_apply _ bcast_S16x16_S16x1x16x1_0_2 _ _
      (ix2 (⟨j.val / 3, by omega⟩ : Fin 16) (⟨n.val / 128, by omega⟩ : Fin 16))
      (fun a => match a with | ⟨0, _⟩ => rfl | ⟨1, _⟩ => rfl)).trans ?_
    exact eye16_apply _ _
  · -- the weight slice's two broadcasts, then the slice
    refine (broadcastInDim_apply _ bcast_S1x3x1x128_S16x3x16x128_0_1_2_3 _ _
      (ix4 (0 : Fin 1) (⟨j.val % 3, by omega⟩ : Fin 3) (0 : Fin 1) (⟨n.val % 128, by omega⟩ : Fin 128))
      (fun a => match a with | ⟨0, _⟩ => rfl | ⟨1, _⟩ => rfl | ⟨2, _⟩ => rfl | ⟨3, _⟩ => rfl)).trans ?_
    refine (broadcastInDim_apply _ bcast_S3x128_S1x3x1x128_1_3 _ _
      (ix2 (⟨j.val % 3, by omega⟩ : Fin 3) (⟨n.val % 128, by omega⟩ : Fin 128))
      (fun a => match a with | ⟨0, _⟩ => rfl | ⟨1, _⟩ => rfl)).trans ?_
    exact extractStridedSlice_apply _ W slices_S131x128_S3x128_0_0 _ _
      (fun a => match a with
        | ⟨0, _⟩ => by show j.val % 3 = 0 + j.val % 3; omega
        | ⟨1, _⟩ => by show n.val % 128 = 0 + n.val % 128; omega)

/-! ## What the region finds, at an index -/

/-- The block-diagonal weight the region finds, at row j and column n: on the diagonal blocks (j / 3 = n / 128)
    the weight argument's entry at row j mod 3, column n mod 128; zero elsewhere. -/
theorem V_main_v8_apply (j : Fin 48) (n : Fin 2048) :
    (V m c main_v8 : S48x2048.Idx → EReal) (ix2 j n)
      = (if j.val / 3 = n.val / 128 then (1 : EReal) else 0)
          * (m ((c : Thread nD τ).loc main_arg3) : S131x128.Idx → EReal)
              (ix2 (⟨j.val % 3, by omega⟩ : Fin 131) (⟨n.val % 128, by omega⟩ : Fin 128)) :=
  (congrFun (V_main_v8_eq m c) (ix2 j n)).trans (kronTerm_apply _ j n)

/-- The lower slice the region finds, at (f, e): the weight argument's entry at row 3 + f, column e. -/
theorem V_main_v1_apply (f e : Fin 128) :
    (V m c main_v1 : S128x128.Idx → EReal) (ix2 f e)
      = (m ((c : Thread nD τ).loc main_arg3) : S131x128.Idx → EReal)
          (ix2 (⟨3 + f.val, by omega⟩ : Fin 131) e) :=
  (congrFun (V_main_v1_eq m c) (ix2 f e)).trans
    (extractStridedSlice_apply _ _ slices_S131x128_S128x128_3_0 _ _ (fun a => match a with
      | ⟨0, _⟩ => rfl
      | ⟨1, _⟩ => by show e.val = 0 + e.val; omega))

/-! ## The reshapes after the region, read at an index -/

/-- The first result's reshape 50000 × 1024 → 800000 × 64 at (q, e): row q / 16, column 64 (q mod 16) + e. -/
theorem reshape_1024_64_apply (A10 : S50000x1024.Idx → EReal) (q : Fin 800000) (e : Fin 64) :
    shapeCast S800000x64 A10 shapeCasts_S50000x1024_S800000x64 (ix2 q e)
      = A10 (ix2 (⟨q.val / 16, by have := q.isLt; omega⟩ : Fin 50000)
          (⟨64 * (q.val % 16) + e.val, by have := e.isLt; omega⟩ : Fin 1024)) := by
  have hq := q.isLt
  have he := e.isLt
  refine shapeCast_apply A10 shapeCasts_S50000x1024_S800000x64 _ _ ?_
  rw [Shape.rowMajor_val_two, Shape.rowMajor_val_two]
  show (q.val / 16) * 1024 + (64 * (q.val % 16) + e.val) = q.val * 64 + e.val
  omega

/-- The second result's reshape 50000 × 48 → 800000 × 3 at (q, d): row q / 16, column 3 (q mod 16) + d. -/
theorem reshape_48_3_apply (A11 : S50000x48.Idx → EReal) (q : Fin 800000) (d : Fin 3) :
    shapeCast S800000x3 A11 shapeCasts_S50000x48_S800000x3 (ix2 q d)
      = A11 (ix2 (⟨q.val / 16, by have := q.isLt; omega⟩ : Fin 50000)
          (⟨3 * (q.val % 16) + d.val, by have := d.isLt; omega⟩ : Fin 48)) := by
  have hq := q.isLt
  have hd := d.isLt
  refine shapeCast_apply A11 shapeCasts_S50000x48_S800000x3 _ _ ?_
  rw [Shape.rowMajor_val_two, Shape.rowMajor_val_two]
  show (q.val / 16) * 48 + (3 * (q.val % 16) + d.val) = q.val * 3 + d.val
  omega

/-! ## The host operations after the region, as terms over the region's output arrays -/

/-- The first result: the reshape of the region's first output array. -/
theorem tail_main_v10_eq :
    (Pipeline.afterTail₀ cfgs (dats m) 0 (V0 m) [hostOps1] c main_v10 : S800000x64.Idx → EReal)
      = shapeCast S800000x64 ((dats m 0 c).arrAt 10 cfg0.N : S50000x1024.Idx → EReal)
          shapeCasts_S50000x1024_S800000x64 := by
  unfold Pipeline.afterTail₀
  show StableHlo.after hostOps1 _ (Proc.devRef .tc main_v10) = _
  after_results_simp
  exact congrArg (fun A : S50000x1024.Idx → EReal => shapeCast S800000x64 A shapeCasts_S50000x1024_S800000x64)
    (Pipeline.withArrays_arr spec0 launch0.win.arr_inj c _ _ 10)

/-- The second result: the reshape of the region's second output array. -/
theorem tail_main_v11_eq :
    (Pipeline.afterTail₀ cfgs (dats m) 0 (V0 m) [hostOps1] c main_v11 : S800000x3.Idx → EReal)
      = shapeCast S800000x3 ((dats m 0 c).arrAt 11 cfg0.N : S50000x48.Idx → EReal)
          shapeCasts_S50000x48_S800000x3 := by
  unfold Pipeline.afterTail₀
  show StableHlo.after hostOps1 _ (Proc.devRef .tc main_v11) = _
  after_results_simp
  exact congrArg (fun A : S50000x48.Idx → EReal => shapeCast S800000x3 A shapeCasts_S50000x48_S800000x3)
    (Pipeline.withArrays_arr spec0 launch0.win.arr_inj c _ _ 11)

/-- The third result: each row number repeated sixteen times, as the host builds it. -/
theorem tail_main_v14_eq :
    (Pipeline.afterTail₀ cfgs (dats m) 0 (V0 m) [hostOps1] c main_v14 : S800000.Idx → BitVec 32)
      = shapeCast S800000 (broadcastInDim S50000x16 ![0] bcast_S50000_S50000x16_0 (iotaInDim S50000 32 0))
          shapeCasts_S50000x16_S800000 := by
  unfold Pipeline.afterTail₀
  show StableHlo.after hostOps1 _ (Proc.devRef .tc main_v14) = _
  after_results_simp
  rfl

/-- The third result's term at q: the row number q / 16, as a 32-bit word. -/
theorem repeat16_apply (q : Fin 800000) :
    shapeCast S800000 (broadcastInDim S50000x16 ![0] bcast_S50000_S50000x16_0 (iotaInDim S50000 32 0))
        shapeCasts_S50000x16_S800000 (ix1 q)
      = BitVec.ofNat 32 (q.val / 16) := by
  have hq := q.isLt
  refine (shapeCast_apply _ shapeCasts_S50000x16_S800000 (ix1 q)
    (ix2 (⟨q.val / 16, by omega⟩ : Fin 50000) (⟨q.val % 16, by omega⟩ : Fin 16)) ?_).trans ?_
  · rw [Shape.rowMajor_val_two, Shape.rowMajor_val_one]
    show (q.val / 16) * 16 + q.val % 16 = q.val
    omega
  refine (broadcastInDim_apply _ bcast_S50000_S50000x16_0 _ _ (ix1 (⟨q.val / 16, by omega⟩ : Fin 50000))
    (fun a => match a with | ⟨0, _⟩ => rfl)).trans ?_
  rfl

/-! ## The three results at an index -/

/-- The first result at (q, e): the region's first output array at row q / 16, column 64 (q mod 16) + e. -/
theorem tail_main_v10_apply (q : Fin 800000) (e : Fin 64) :
    (Pipeline.afterTail₀ cfgs (dats m) 0 (V0 m) [hostOps1] c main_v10 : S800000x64.Idx → EReal) (ix2 q e)
      = ((dats m 0 c).arrAt 10 cfg0.N : S50000x1024.Idx → EReal)
          (ix2 (⟨q.val / 16, by have := q.isLt; omega⟩ : Fin 50000)
            (⟨64 * (q.val % 16) + e.val, by have := e.isLt; omega⟩ : Fin 1024)) :=
  (congrFun (tail_main_v10_eq m c) (ix2 q e)).trans (reshape_1024_64_apply _ q e)

/-- The second result at (q, d): the region's second output array at row q / 16, column 3 (q mod 16) + d. -/
theorem tail_main_v11_apply (q : Fin 800000) (d : Fin 3) :
    (Pipeline.afterTail₀ cfgs (dats m) 0 (V0 m) [hostOps1] c main_v11 : S800000x3.Idx → EReal) (ix2 q d)
      = ((dats m 0 c).arrAt 11 cfg0.N : S50000x48.Idx → EReal)
          (ix2 (⟨q.val / 16, by have := q.isLt; omega⟩ : Fin 50000)
            (⟨3 * (q.val % 16) + d.val, by have := d.isLt; omega⟩ : Fin 48)) :=
  (congrFun (tail_main_v11_eq m c) (ix2 q d)).trans (reshape_48_3_apply _ q d)

/-- The third result at q: the row number q / 16, as a 32-bit word. -/
theorem tail_main_v14_apply (q : Fin 800000) :
    (Pipeline.afterTail₀ cfgs (dats m) 0 (V0 m) [hostOps1] c main_v14 : S800000.Idx → BitVec 32) (ix1 q)
      = BitVec.ofNat 32 (q.val / 16) :=
  (congrFun (tail_main_v14_eq m c) (ix1 q)).trans (repeat16_apply q)

end Cert.KernelIdeal.HostSide

end
-- ==== Proof.Blocks.lean ====
/-
  From the blocks each grid point writes back to the two whole output arrays.

  The grid has 50 points; point `t` stages rows `1000 t … 1000 t + 999` of the feature array and the whole of every
  weight array, and writes back rows `1000 t … 1000 t + 999` of both outputs. An element of a block sits in its array,
  on each axis, at the block index times the block size plus its coordinate inside the block. Given what the body leaves
  in each output block as a function of the staged blocks (the two laws taken as hypotheses), every point writes back its
  block of ONE function of the argument arrays, and the 50 blocks cover the arrays (row `p` lies in block `p / 1000`).
-/
import proofs.«155941_j4294967296690_2_alg».proof.Proof.Gen.KernelIdeal.Frame
import proofs.«155941_j4294967296690_2_alg».proof.Proof.Spec
import proofs.«155941_j4294967296690_2_alg».proof.Proof.HostSide
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The block indices of the twelve windows at every grid point: the feature window and the two output windows are at
    block `(t, 0)`, every weight window at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Row `r` of the feature block at point `t` is row `1000 t + r` of the feature array. -/
theorem blk0_apply (t : Fin cfg0.N) (y : S1000x160.Idx) (k : S50000x160.Idx)
    (hk0 : (k 0).val = 1000 * t.val + (y 0).val) (hk1 : (k 1).val = (y 1).val) :
    (iblk m c 0 t : Vec Ideal S1000x160 .f32) y = (m ((c : Thread nD τ).loc main_arg0) : S50000x160.Idx → EReal) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 1000 + 1 * (y 0).val = (k 0).val; rw [e0, hk0]; omega
  | ⟨1, _⟩ => show win0_0.index t 1 * 160 + 1 * (y 1).val = (k 1).val; rw [e1, hk1]; omega

/-- The first weight's block at every point is its whole array. -/
theorem blk1_eq (t : Fin cfg0.N) :
    (iblk m c 1 t : Vec Ideal S32x48 .f32) = (m ((c : Thread nD τ).loc main_arg1) : S32x48.Idx → EReal) := by
  obtain ⟨-, -, e0, e1, -⟩ := idx_facts t
  funext y
  unfold iblk
  rw [View.read_apply]
  show V m c main_arg1 _ = _
  rw [V_main_arg1]
  congr 1
  funext a
  apply Fin.ext
  match a with
  | ⟨0, _⟩ => show win0_1.index t 0 * 32 + 1 * (y 0).val = (y 0).val; rw [e0]; omega
  | ⟨1, _⟩ => show win0_1.index t 1 * 48 + 1 * (y 1).val = (y 1).val; rw [e1]; omega

/-- The first bias's block at every point is its whole array. -/
theorem blk2_eq (t : Fin cfg0.N) :
    (iblk m c 2 t : Vec Ideal S48 .f32) = (m ((c : Thread nD τ).loc main_arg2) : S48.Idx → EReal) := by
  obtain ⟨-, -, -, -, e0, -⟩ := idx_facts t
  funext y
  unfold iblk
  rw [View.read_apply]
  show V m c main_arg2 _ = _
  rw [V_main_arg2]
  congr 1
  funext a
  apply Fin.ext
  match a with
  | ⟨0, _⟩ => show win0_2.index t 0 * 48 + 1 * (y 0).val = (y 0).val; rw [e0]; omega

/-! ## The second output: the scaled coordinates -/

/-- What the body leaves in the second output's block, as a law over any ten staged blocks: row `r`, column `j` is the
    decoded coordinate `j` of the block's row `r`, times the radius. -/
abbrev Out11Law : Prop :=
  ∀ (x0 : Vec Ideal S1000x160 .f32) (x1 : Vec Ideal S32x48 .f32) (x2 : Vec Ideal S48 .f32) (x3 : Vec Ideal S48x2048 .f32)
    (x4 : Vec Ideal S128x128 .f32) (x5 : Vec Ideal S128 .f32) (x6 : Vec Ideal S128x128 .f32) (x7 : Vec Ideal S128 .f32)
    (x8 : Vec Ideal S128x64 .f32) (x9 : Vec Ideal S64 .f32) (r : Fin 1000) (j : Fin 48),
    Gen.out0_11 x0 x1 x2 x3 x4 x5 x6 x7 x8 x9 (ix2 r j)
      = Cert.Spec.rel x1 x2 (fun i : Fin 160 => x0 (ix2 r i)) j * Cert.Spec.quarter

/-- The second output array as one function of the argument arrays: row `p`, column `j` is the decoded coordinate `j`
    of point `p`, times the radius. -/
def Out11 (X : Cert.Spec.Mat 50000 160) (Wn : Cert.Spec.Mat 32 48) (bn : Cert.Spec.Vct 48) : S50000x48.Idx → EReal :=
  fun i => Cert.Spec.rel Wn bn (Cert.Spec.row X (i 0)) (i 1) * Cert.Spec.quarter

/-- One element of the second output's block, over any staged blocks that are the argument arrays' blocks at point `t`:
    the block's row `r` is the array's row `1000 t + r`. -/
theorem out11_point (H11 : Out11Law) (X : Cert.Spec.Mat 50000 160) (Wn : Cert.Spec.Mat 32 48) (bn : Cert.Spec.Vct 48)
    (x0 : Vec Ideal S1000x160 .f32) (x1 : Vec Ideal S32x48 .f32) (x2 : Vec Ideal S48 .f32) (x3 : Vec Ideal S48x2048 .f32)
    (x4 : Vec Ideal S128x128 .f32) (x5 : Vec Ideal S128 .f32) (x6 : Vec Ideal S128x128 .f32) (x7 : Vec Ideal S128 .f32)
    (x8 : Vec Ideal S128x64 .f32) (x9 : Vec Ideal S64 .f32) (t : Nat)
    (h0 : ∀ (y : S1000x160.Idx) (k : S50000x160.Idx), (k 0).val = 1000 * t + (y 0).val → (k 1).val = (y 1).val → x0 y = X k)
    (h1 : x1 = Wn) (h2 : x2 = bn)
    (y : S1000x48.Idx) (k : S50000x48.Idx) (hk0 : (k 0).val = 1000 * t + (y 0).val) (hk1 : (k 1).val = (y 1).val) :
    Gen.out0_11 x0 x1 x2 x3 x4 x5 x6 x7 x8 x9 y = Out11 X Wn bn k := by
  obtain ⟨r, j, rfl⟩ : ∃ (r : Fin 1000) (j : Fin 48), y = ix2 r j := ⟨y 0, y 1, eq_ix2 y⟩
  obtain ⟨p, j', rfl⟩ : ∃ (p : Fin 50000) (j' : Fin 48), k = ix2 p j' := ⟨k 0, k 1, eq_ix2 k⟩
  have hp : p.val = 1000 * t + r.val := hk0
  obtain rfl : j' = j := Fin.ext hk1
  subst h1 h2
  rw [H11]
  have e : (fun i : Fin 160 => x0 (ix2 r i)) = Cert.Spec.row X p :=
    funext fun i => h0 (ix2 r i) (ix2 p i) hp rfl
  rw [e]
  rfl

/-- What point `t` writes back to the second output is its block of `Out11` of the argument arrays. -/
theorem flushed11_eq (H11 : Out11Law) (t : Fin cfg0.N) :
    (dats m 0 c).flushed 11 t = ((cfg0.win 11).blk t).view.read (Elt Ideal)
      (Out11 (m ((c : Thread nD τ).loc main_arg0)) (m ((c : Thread nD τ).loc main_arg1)) (m ((c : Thread nD τ).loc main_arg2))) := by
  show (cfg0.win 11).cut (grid0.coords t) ((dats m 0 c).after 11 t) = _
  rw [after0_11]
  obtain ⟨-, -, -, -, -, -, -, -, -, -, -, -, -, -, -, -, -, -, e0, e1⟩ := idx_facts t
  funext y
  refine out11_point H11 (m ((c : Thread nD τ).loc main_arg0)) (m ((c : Thread nD τ).loc main_arg1)) (m ((c : Thread nD τ).loc main_arg2))
    (iblk m c 0 t) (iblk m c 1 t) (iblk m c 2 t) (iblk m c 3 t) (iblk m c 4 t) (iblk m c 5 t) (iblk m c 6 t) (iblk m c 7 t)
    (iblk m c 8 t) (iblk m c 9 t) t.val (fun y k hk0 hk1 => blk0_apply m c t y k hk0 hk1) (blk1_eq m c t) (blk2_eq m c t)
    ((cfg0.win 11).xinj (grid0.coords t) y) (((cfg0.win 11).blk t).view.emb y) ?_ ?_
  · show win0_11.index t 0 * 1000 + 1 * (y 0).val = 1000 * t.val + (y 0).val
    rw [e0]; omega
  · show win0_11.index t 1 * 48 + 1 * (y 1).val = (y 1).val
    rw [e1]; omega

/-- An index of the second output array is in point `t`'s block iff each coordinate is in the block's range on its axis. -/
theorem mem_blk11 (t : Fin cfg0.N) (i : S50000x48.Idx) :
    i ∈ ((cfg0.win 11).blk t).view.set ↔ ∀ a : Fin 2, win0_11.index t a * S1000x48.size a ≤ (i a).val ∧ (i a).val < win0_11.index t a * S1000x48.size a + S1000x48.size a := by
  show i ∈ ((View.whole main_v9_1).slice (win0_11.rect t)).set ↔ _
  rw [View.set_slice_whole, Rect.mem_set_unit]
  exact Iff.rfl

/-- Every index of the second output array is in some point's block: row `p` is in block `p / 1000`. -/
theorem cover11 (i : S50000x48.Idx) :
    ∃ t : Fin cfg0.N, (cfg0.win 11).flush t = true ∧ i ∈ ((cfg0.win 11).blk t).view.set := by
  have hi0 : (i 0).val < 50000 := (i 0).isLt
  have hi1 : (i 1).val < 48 := (i 1).isLt
  have hN : cfg0.N = 50 := rfl
  refine ⟨⟨(i 0).val / 1000, by rw [hN]; omega⟩, flush0_11 _, ?_⟩
  rw [mem_blk11]
  obtain ⟨-, -, -, -, -, -, -, -, -, -, -, -, -, -, -, -, -, -, e0, e1⟩ := idx_facts ⟨(i 0).val / 1000, by rw [hN]; omega⟩
  intro a
  match a with
  | ⟨0, _⟩ =>
    show win0_11.index _ (0 : Fin 2) * 1000 ≤ (i 0).val ∧ (i 0).val < win0_11.index _ (0 : Fin 2) * 1000 + 1000
    rw [e0]; show (i 0).val / 1000 * 1000 ≤ (i 0).val ∧ (i 0).val < (i 0).val / 1000 * 1000 + 1000; omega
  | ⟨1, _⟩ =>
    show win0_11.index _ (1 : Fin 2) * 48 ≤ (i 1).val ∧ (i 1).val < win0_11.index _ (1 : Fin 2) * 48 + 48
    rw [e1]; omega

/-- THE SECOND OUTPUT ARRAY after the run is `Out11` of the argument arrays. -/
theorem final11 (H11 : Out11Law) :
    (dats m 0 c).arrAt 11 cfg0.N
      = Out11 (m ((c : Thread nD τ).loc main_arg0)) (m ((c : Thread nD τ).loc main_arg1)) (m ((c : Thread nD τ).loc main_arg2)) :=
  (dats m 0 c).arrAt_eq_of_cover 11 _ (fun t _ => flushed11_eq m c H11 t) cover11

/-- The block-diagonal matrix's block at every point is its whole array, as the region finds it. -/
theorem blk3_eq (t : Fin cfg0.N) :
    (iblk m c 3 t : Vec Ideal S48x2048 .f32) = (V m c main_v8 : S48x2048.Idx → EReal) := by
  obtain ⟨-, -, -, -, -, e0, e1, -⟩ := idx_facts t
  funext y
  unfold iblk
  rw [View.read_apply]
  show V m c main_v8 _ = _
  congr 1
  funext a
  apply Fin.ext
  match a with
  | ⟨0, _⟩ => show win0_3.index t 0 * 48 + 1 * (y 0).val = (y 0).val; rw [e0]; omega
  | ⟨1, _⟩ => show win0_3.index t 1 * 2048 + 1 * (y 1).val = (y 1).val; rw [e1]; omega

/-- The lower rows' block at every point is its whole array, as the region finds it. -/
theorem blk4_eq (t : Fin cfg0.N) :
    (iblk m c 4 t : Vec Ideal S128x128 .f32) = (V m c main_v1 : S128x128.Idx → EReal) := by
  obtain ⟨-, -, -, -, -, -, -, e0, e1, -⟩ := idx_facts t
  funext y
  unfold iblk
  rw [View.read_apply]
  show V m c main_v1 _ = _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The first layer's bias block at every point is its whole array. -/
theorem blk5_eq (t : Fin cfg0.N) :
    (iblk m c 5 t : Vec Ideal S128 .f32) = (m ((c : Thread nD τ).loc main_arg4) : S128.Idx → EReal) := by
  obtain ⟨-, -, -, -, -, -, -, -, -, e0, -⟩ := idx_facts t
  funext y
  unfold iblk
  rw [View.read_apply]
  show V m c main_arg4 _ = _
  rw [V_main_arg4]
  congr 1
  funext a
  apply Fin.ext
  match a with
  | ⟨0, _⟩ => show win0_5.index t 0 * 128 + 1 * (y 0).val = (y 0).val; rw [e0]; omega

/-- The second layer's weight block at every point is its whole array. -/
theorem blk6_eq (t : Fin cfg0.N) :
    (iblk m c 6 t : Vec Ideal S128x128 .f32) = (m ((c : Thread nD τ).loc main_arg5) : S128x128.Idx → EReal) := by
  obtain ⟨-, -, -, -, -, -, -, -, -, -, e0, e1, -⟩ := idx_facts t
  funext y
  unfold iblk
  rw [View.read_apply]
  show V m c main_arg5 _ = _
  rw [V_main_arg5]
  congr 1
  funext a
  apply Fin.ext
  match a with
  | ⟨0, _⟩ => show win0_6.index t 0 * 128 + 1 * (y 0).val = (y 0).val; rw [e0]; omega
  | ⟨1, _⟩ => show win0_6.index t 1 * 128 + 1 * (y 1).val = (y 1).val; rw [e1]; omega

/-- The second layer's bias block at every point is its whole array. -/
theorem blk7_eq (t : Fin cfg0.N) :
    (iblk m c 7 t : Vec Ideal S128 .f32) = (m ((c : Thread nD τ).loc main_arg6) : S128.Idx → EReal) := by
  obtain ⟨-, -, -, -, -, -, -, -, -, -, -, -, e0, -⟩ := idx_facts t
  funext y
  unfold iblk
  rw [View.read_apply]
  show V m c main_arg6 _ = _
  rw [V_main_arg6]
  congr 1
  funext a
  apply Fin.ext
  match a with
  | ⟨0, _⟩ => show win0_7.index t 0 * 128 + 1 * (y 0).val = (y 0).val; rw [e0]; omega

/-- The third layer's weight block at every point is its whole array. -/
theorem blk8_eq (t : Fin cfg0.N) :
    (iblk m c 8 t : Vec Ideal S128x64 .f32) = (m ((c : Thread nD τ).loc main_arg7) : S128x64.Idx → EReal) := by
  obtain ⟨-, -, -, -, -, -, -, -, -, -, -, -, -, e0, e1, -⟩ := idx_facts t
  funext y
  unfold iblk
  rw [View.read_apply]
  show V m c main_arg7 _ = _
  rw [V_main_arg7]
  congr 1
  funext a
  apply Fin.ext
  match a with
  | ⟨0, _⟩ => show win0_8.index t 0 * 128 + 1 * (y 0).val = (y 0).val; rw [e0]; omega
  | ⟨1, _⟩ => show win0_8.index t 1 * 64 + 1 * (y 1).val = (y 1).val; rw [e1]; omega

/-- The third layer's bias block at every point is its whole array. -/
theorem blk9_eq (t : Fin cfg0.N) :
    (iblk m c 9 t : Vec Ideal S64 .f32) = (m ((c : Thread nD τ).loc main_arg8) : S64.Idx → EReal) := by
  obtain ⟨-, -, -, -, -, -, -, -, -, -, -, -, -, -, -, e0, -⟩ := idx_facts t
  funext y
  unfold iblk
  rw [View.read_apply]
  show V m c main_arg8 _ = _
  rw [V_main_arg8]
  congr 1
  funext a
  apply Fin.ext
  match a with
  | ⟨0, _⟩ => show win0_9.index t 0 * 64 + 1 * (y 0).val = (y 0).val; rw [e0]; omega

/-! ## The first output: the 64 features of each of a point's 16 neighbours -/

/-- What the body leaves in the first output's block, as a law over any ten staged blocks of which the fourth is the
    block-diagonal matrix of a weight `W1` and the fifth that weight's rows from the fourth on: row `r`, column
    `64 k + c` is output feature `c` of the pair (the block's row `r`, neighbour `k`). -/
abbrev Out10Law : Prop :=
  ∀ (x0 : Vec Ideal S1000x160 .f32) (x1 : Vec Ideal S32x48 .f32) (x2 : Vec Ideal S48 .f32) (x3 : Vec Ideal S48x2048 .f32)
    (x4 : Vec Ideal S128x128 .f32) (x5 : Vec Ideal S128 .f32) (x6 : Vec Ideal S128x128 .f32) (x7 : Vec Ideal S128 .f32)
    (x8 : Vec Ideal S128x64 .f32) (x9 : Vec Ideal S64 .f32) (W1 : Cert.Spec.Mat 131 128)
    (_ : ∀ (j : Fin 48) (n : Fin 2048), x3 (ix2 j n) = Cert.Spec.kron W1 j n)
    (_ : ∀ (f e : Fin 128), x4 (ix2 f e) = W1 (ix2 (Cert.Spec.w1Bot f) e))
    (r : Fin 1000) (k : Fin 16) (c : Fin 64),
    Gen.out0_10 x0 x1 x2 x3 x4 x5 x6 x7 x8 x9
        (ix2 r (⟨64 * k.val + c.val, by have := k.isLt; have := c.isLt; omega⟩ : Fin 1024))
      = Cert.Spec.fc3 x1 x2 W1 x5 x6 x7 x8 x9 (fun i : Fin 160 => x0 (ix2 r i)) k c

/-- The first output array as one function of the argument arrays: row `p`, column `n` is output feature `n % 64` of
    the pair (point `p`, neighbour `n / 64`). -/
def Out10 (X : Cert.Spec.Mat 50000 160) (Wn : Cert.Spec.Mat 32 48) (bn : Cert.Spec.Vct 48) (W1 : Cert.Spec.Mat 131 128)
    (b1 : Cert.Spec.Vct 128) (W2 : Cert.Spec.Mat 128 128) (b2 : Cert.Spec.Vct 128) (W3 : Cert.Spec.Mat 128 64)
    (b3 : Cert.Spec.Vct 64) : S50000x1024.Idx → EReal :=
  fun i => Cert.Spec.fc3 Wn bn W1 b1 W2 b2 W3 b3 (Cert.Spec.row X (i 0))
    (⟨(i 1).val / 64, by have := idx2_lt1 i; omega⟩ : Fin 16) (⟨(i 1).val % 64, by omega⟩ : Fin 64)

/-- One element of the first output's block, over any staged blocks that are the argument arrays' blocks at point `t`:
    the block's row `r` is the array's row `1000 t + r`, and column `n` is `64 (n / 64) + n % 64`. -/
theorem out10_point (H10 : Out10Law) (X : Cert.Spec.Mat 50000 160) (Wn : Cert.Spec.Mat 32 48) (bn : Cert.Spec.Vct 48)
    (W1 : Cert.Spec.Mat 131 128) (b1 : Cert.Spec.Vct 128) (W2 : Cert.Spec.Mat 128 128) (b2 : Cert.Spec.Vct 128)
    (W3 : Cert.Spec.Mat 128 64) (b3 : Cert.Spec.Vct 64)
    (x0 : Vec Ideal S1000x160 .f32) (x1 : Vec Ideal S32x48 .f32) (x2 : Vec Ideal S48 .f32) (x3 : Vec Ideal S48x2048 .f32)
    (x4 : Vec Ideal S128x128 .f32) (x5 : Vec Ideal S128 .f32) (x6 : Vec Ideal S128x128 .f32) (x7 : Vec Ideal S128 .f32)
    (x8 : Vec Ideal S128x64 .f32) (x9 : Vec Ideal S64 .f32) (t : Nat)
    (h0 : ∀ (y : S1000x160.Idx) (k : S50000x160.Idx), (k 0).val = 1000 * t + (y 0).val → (k 1).val = (y 1).val → x0 y = X k)
    (h1 : x1 = Wn) (h2 : x2 = bn)
    (h3 : ∀ (j : Fin 48) (n : Fin 2048), x3 (ix2 j n) = Cert.Spec.kron W1 j n)
    (h4 : ∀ (f e : Fin 128), x4 (ix2 f e) = W1 (ix2 (Cert.Spec.w1Bot f) e))
    (h5 : x5 = b1) (h6 : x6 = W2) (h7 : x7 = b2) (h8 : x8 = W3) (h9 : x9 = b3)
    (y : S1000x1024.Idx) (k : S50000x1024.Idx) (hk0 : (k 0).val = 1000 * t + (y 0).val) (hk1 : (k 1).val = (y 1).val) :
    Gen.out0_10 x0 x1 x2 x3 x4 x5 x6 x7 x8 x9 y = Out10 X Wn bn W1 b1 W2 b2 W3 b3 k := by
  obtain ⟨r, n, rfl⟩ : ∃ (r : Fin 1000) (n : Fin 1024), y = ix2 r n := ⟨y 0, y 1, eq_ix2 y⟩
  obtain ⟨p, n', rfl⟩ : ∃ (p : Fin 50000) (n' : Fin 1024), k = ix2 p n' := ⟨k 0, k 1, eq_ix2 k⟩
  have hp : p.val = 1000 * t + r.val := hk0
  obtain rfl : n = n' := (Fin.ext hk1).symm
  subst h1 h2 h5 h6 h7 h8 h9
  have hn := n.isLt
  have en : n = (⟨64 * (n.val / 64) + n.val % 64, by omega⟩ : Fin 1024) :=
    Fin.ext (by show n.val = 64 * (n.val / 64) + n.val % 64; omega)
  refine (congrArg (fun z : Fin 1024 => Gen.out0_10 x0 x1 x2 x3 x4 x5 x6 x7 x8 x9 (ix2 r z)) en).trans ?_
  refine (H10 x0 x1 x2 x3 x4 x5 x6 x7 x8 x9 W1 h3 h4 r (⟨n.val / 64, by omega⟩ : Fin 16) (⟨n.val % 64, by omega⟩ : Fin 64)).trans ?_
  have e : (fun i : Fin 160 => x0 (ix2 r i)) = Cert.Spec.row X p :=
    funext fun i => h0 (ix2 r i) (ix2 p i) hp rfl
  rw [e]
  rfl

/-- What point `t` writes back to the first output is its block of `Out10` of the argument arrays. -/
theorem flushed10_eq (H10 : Out10Law) (t : Fin cfg0.N) :
    (dats m 0 c).flushed 10 t = ((cfg0.win 10).blk t).view.read (Elt Ideal) (Out10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 10).cut (grid0.coords t) ((dats m 0 c).after 10 t) = _
  rw [after0_10]
  obtain ⟨-, -, -, -, -, -, -, -, -, -, -, -, -, -, -, -, e0, e1, -⟩ := idx_facts t
  funext y
  refine out10_point H10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t)
    (iblk m c 8 t) (iblk m c 9 t) t.val (fun y k hk0 hk1 => blk0_apply m c t y k hk0 hk1) (blk1_eq m c t) (blk2_eq m c t)
    (fun j n => (congrFun (blk3_eq m c t) (ix2 j n)).trans (HostSide.V_main_v8_apply m c j n))
    (fun f e => (congrFun (blk4_eq m c t) (ix2 f e)).trans (HostSide.V_main_v1_apply m c f e))
    (blk5_eq m c t) (blk6_eq m c t) (blk7_eq m c t) (blk8_eq m c t) (blk9_eq m c t)
    ((cfg0.win 10).xinj (grid0.coords t) y) (((cfg0.win 10).blk t).view.emb y) ?_ ?_
  · show win0_10.index t 0 * 1000 + 1 * (y 0).val = 1000 * t.val + (y 0).val
    rw [e0]; omega
  · show win0_10.index t 1 * 1024 + 1 * (y 1).val = (y 1).val
    rw [e1]; omega

/-- An index of the first output array is in point `t`'s block iff each coordinate is in the block's range on its axis. -/
theorem mem_blk10 (t : Fin cfg0.N) (i : S50000x1024.Idx) :
    i ∈ ((cfg0.win 10).blk t).view.set ↔ ∀ a : Fin 2, win0_10.index t a * S1000x1024.size a ≤ (i a).val ∧ (i a).val < win0_10.index t a * S1000x1024.size a + S1000x1024.size a := by
  show i ∈ ((View.whole main_v9_0).slice (win0_10.rect t)).set ↔ _
  rw [View.set_slice_whole, Rect.mem_set_unit]
  exact Iff.rfl

/-- Every index of the first output array is in some point's block: row `p` is in block `p / 1000`. -/
theorem cover10 (i : S50000x1024.Idx) :
    ∃ t : Fin cfg0.N, (cfg0.win 10).flush t = true ∧ i ∈ ((cfg0.win 10).blk t).view.set := by
  have hi0 : (i 0).val < 50000 := (i 0).isLt
  have hi1 : (i 1).val < 1024 := (i 1).isLt
  have hN : cfg0.N = 50 := rfl
  refine ⟨⟨(i 0).val / 1000, by rw [hN]; omega⟩, flush0_10 _, ?_⟩
  rw [mem_blk10]
  obtain ⟨-, -, -, -, -, -, -, -, -, -, -, -, -, -, -, -, e0, e1, -⟩ := idx_facts ⟨(i 0).val / 1000, by rw [hN]; omega⟩
  intro a
  match a with
  | ⟨0, _⟩ =>
    show win0_10.index _ (0 : Fin 2) * 1000 ≤ (i 0).val ∧ (i 0).val < win0_10.index _ (0 : Fin 2) * 1000 + 1000
    rw [e0]; show (i 0).val / 1000 * 1000 ≤ (i 0).val ∧ (i 0).val < (i 0).val / 1000 * 1000 + 1000; omega
  | ⟨1, _⟩ =>
    show win0_10.index _ (1 : Fin 2) * 1024 ≤ (i 1).val ∧ (i 1).val < win0_10.index _ (1 : Fin 2) * 1024 + 1024
    rw [e1]; omega

/-- THE FIRST OUTPUT ARRAY after the run is `Out10` of the argument arrays. -/
theorem final10 (H10 : Out10Law) :
    (dats m 0 c).arrAt 10 cfg0.N = Out10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 _ (fun t _ => flushed10_eq m c H10 t) cover10

end Cert.KernelIdeal.Blocks

end
-- ==== Proof.Body.lean ====
/-
  One grid point of the kernel, as values. A block of 1000 points is decoded to 48 coordinates a point; one 2048-wide
  product with the block-diagonal matrix gives every neighbour's contribution of its three coordinates to the first
  layer; the features' product with the lower rows of the first matrix is shared by the 16 neighbours. For each
  neighbour the body then clamps, multiplies by the second matrix, clamps, multiplies by the third, clamps, and stores
  the neighbours' 64 outputs two by two, side by side, in eight 128-column stores.
  `layerV` is one neighbour's computation on the block and `pairV` one store's value; what the eight stores leave in
  the output buffer is exactly the list of pairs (`out0_10_eq`). Read entry by entry over the extended reals, a layer
  is the specification's three-layer tower on the row (`layerV_apply`).
-/
import proofs.«155941_j4294967296690_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout
import proofs.«155941_j4294967296690_2_alg».proof.Proof.Spec

noncomputable section

open scoped BigOperators

namespace Cert.KernelIdeal.Body

open Cert.KernelIdeal Cert.KernelIdeal.Gen Idealize.ShloMosaic Idealize.ShloMosaic.TcCoe Idealize.ShloMosaic.ValueIdx

variable {F : FTy → Type} [FloatOps F]

/-- A bias vector laid along each of the block's 1000 rows. -/
def rowB128 (v : Vec F S128 .f32) : FVec F S1000x128 .f32 :=
  broadcastTo S1000x128 (shapeCast S1x128 v shapeCasts_S128_S1x128) broadcasts_S1x128_S1000x128
def rowB64 (v : Vec F S64 .f32) : FVec F S1000x64 .f32 :=
  broadcastTo S1000x64 (shapeCast S1x64 v shapeCasts_S64_S1x64) broadcasts_S1x64_S1000x64

/-- `max · 0`, entry by entry. -/
def clamp128 (x : FVec F S1000x128 .f32) : FVec F S1000x128 .f32 :=
  maximumf x (broadcast S1000x128 (Scalar.ofBits .f32 0x00000000#32))
def clamp64 (x : FVec F S1000x64 .f32) : FVec F S1000x64 .f32 :=
  maximumf x (broadcast S1000x64 (Scalar.ofBits .f32 0x00000000#32))

/-- One neighbour's three layers on a block of 1000 points: columns `o … o+127` of the 2048-wide product `v19`, plus the
    features' product `v24`, plus the first bias; clamp; second layer; clamp; third layer; clamp. -/
def layerV (o : ℕ) (ho : S1000x2048.Slices ![0, o] S1000x128) (v19 : FVec F S1000x2048 .f32) (v24 : FVec F S1000x128 .f32) (v25 : Vec F S128 .f32) (v26 : Vec F S128 .f32) (v27 : Vec F S64 .f32) (v29 : FVec F S128x128 .bf16) (v31 : FVec F S128x64 .bf16) : FVec F S1000x64 .f32 :=
  clamp64 (addf (matmul dot_S1000x128_S128x64_S1000x64_1_0_0_1_n_n none
    (truncf .bf16 (clamp128 (addf (matmul dot_S1000x128_S128x128_S1000x128_1_0_0_1_n_n none
      (truncf .bf16 (clamp128 (addf (addf (extractStridedSlice S1000x128 ![0, o] v19 ho) v24) (rowB128 v25))) bitsLt_bf16_f32)
      v29 (constant S1000x128 .f32 0x00000000#32)) (rowB128 v26))) bitsLt_bf16_f32)
    v31 (constant S1000x64 .f32 0x00000000#32)) (rowB64 v27))

/-- Two neighbours' outputs side by side: one 128-column store. -/
def pairV (o₁ : ℕ) (h₁ : S1000x2048.Slices ![0, o₁] S1000x128) (o₂ : ℕ) (h₂ : S1000x2048.Slices ![0, o₂] S1000x128) (v19 : FVec F S1000x2048 .f32) (v24 : FVec F S1000x128 .f32) (v25 : Vec F S128 .f32) (v26 : Vec F S128 .f32) (v27 : Vec F S64 .f32) (v29 : FVec F S128x128 .bf16) (v31 : FVec F S128x64 .bf16) : FVec F S1000x128 .f32 :=
  concatenate S1000x128 1 [⟨S1000x64, layerV o₁ h₁ v19 v24 v25 v26 v27 v29 v31⟩, ⟨S1000x64, layerV o₂ h₂ v19 v24 v25 v26 v27 v29 v31⟩]
    concatenates_S1000x64_S1000x64_S1000x128_d1

/-- The 2048-wide product of the decoded coordinates with the block-diagonal matrix, from the loaded blocks. -/
def a_all (x0 : Vec F S1000x160 .f32) (x1 : Vec F S32x48 .f32) (x2 : Vec F S48 .f32) (x3 : Vec F S48x2048 .f32) : FVec F S1000x2048 .f32 :=
  k0_pay4 (View.ld x0 r0_0) (View.ld x1 r0_1) (View.ld x2 r0_2) (View.ld x3 r0_4)
/-- The features' product with the lower 128 rows of the first layer's matrix. -/
def b_base (x0 : Vec F S1000x160 .f32) (x4 : Vec F S128x128 .f32) : FVec F S1000x128 .f32 :=
  k0_pay5 (View.ld x0 r0_0) (View.ld x4 r0_5)

/-- What the body leaves in the feature output's buffer: eight stores of pairs, last first. -/
def outV (x0 : Vec F S1000x160 .f32) (x1 : Vec F S32x48 .f32) (x2 : Vec F S48 .f32) (x3 : Vec F S48x2048 .f32) (x4 : Vec F S128x128 .f32) (x5 : Vec F S128 .f32) (x6 : Vec F S128x128 .f32) (x7 : Vec F S128 .f32) (x8 : Vec F S128x64 .f32) (x9 : Vec F S64 .f32) : Vec F S1000x1024 .f32 :=
  View.canon [⟨r0_16, pairV 1792 slices_S1000x2048_o0_1792_S1000x128 1920 slices_S1000x2048_o0_1920_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_15, pairV 1536 slices_S1000x2048_o0_1536_S1000x128 1664 slices_S1000x2048_o0_1664_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_14, pairV 1280 slices_S1000x2048_o0_1280_S1000x128 1408 slices_S1000x2048_o0_1408_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_13, pairV 1024 slices_S1000x2048_o0_1024_S1000x128 1152 slices_S1000x2048_o0_1152_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_12, pairV 768 slices_S1000x2048_o0_768_S1000x128 896 slices_S1000x2048_o0_896_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_11, pairV 512 slices_S1000x2048_o0_512_S1000x128 640 slices_S1000x2048_o0_640_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_10, pairV 256 slices_S1000x2048_o0_256_S1000x128 384 slices_S1000x2048_o0_384_S1000x128 (a_all x0 x1 x2 x3) (b_base x0 x4) (View.ld x5 r0_6) (View.ld x7 r0_6) (View.ld x9 r0_7) (k0_pay6 (View.ld x6 r0_5)) (k0_pay7 (View.ld x8 r0_8))⟩,
    ⟨r0_9, pairV 0 slices_S1000x2048_o0_0_S1000x128 128 slices_S1000x2048_o0_128_S1000x128 (a_all x0 x1 x2 x3) (b_base x0 x4) (View.ld x5 r0_6) (View.ld x7 r0_6) (View.ld x9 r0_7) (k0_pay6 (View.ld x6 r0_5)) (k0_pay7 (View.ld x8 r0_8))⟩]

theorem out0_10_eq (x0 : Vec F S1000x160 .f32) (x1 : Vec F S32x48 .f32) (x2 : Vec F S48 .f32) (x3 : Vec F S48x2048 .f32) (x4 : Vec F S128x128 .f32) (x5 : Vec F S128 .f32) (x6 : Vec F S128x128 .f32) (x7 : Vec F S128 .f32) (x8 : Vec F S128x64 .f32) (x9 : Vec F S64 .f32) :
    out0_10 x0 x1 x2 x3 x4 x5 x6 x7 x8 x9 = outV x0 x1 x2 x3 x4 x5 x6 x7 x8 x9 := rfl

/-! ## The same, entry by entry, over the extended reals -/

section AtIdeal

/-- A plain `M×K` by `K×N` product accumulated into a zero splat, at entry `(a, b)`: the sum over the one contracted
    coordinate. -/
theorem plain_matmul_zero {M K N : ℕ} {φ₁ φ₂ : FTy} (prec : Option ContractPrecision)
    (l : FVec Ideal ⟨2, ![M, K]⟩ φ₁) (r : FVec Ideal ⟨2, ![K, N]⟩ φ₂) (a : Fin M) (b : Fin N) :
    FloatOps.matmul (DotDims.plain M K N) prec l r (constant _ .f32 0x00000000#32) (ix2 a b)
      = ∑ k : Fin K, l (ix2 a k) * r (ix2 k b) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun x => Fin.ext (by
      match x with
      | ⟨0, _⟩ => rfl
      | ⟨1, _⟩ => exact ((DotDims.plain M K N).lhsIdx_val_of_single rfl _ _).trans hk)
  have er : (DotDims.plain M K N).rhsIdx (ix2 a b) ((contrEquiv1 (DotDims.plain M K N) K rfl rfl).symm k) = ix2 k b :=
    funext fun x => Fin.ext (by
      match x with
      | ⟨0, _⟩ => exact ((DotDims.plain M K N).rhsIdx_val_of_single rfl _ _).trans hk
      | ⟨1, _⟩ => rfl)
  rw [el, er]

theorem rowB128_apply (v : Vec Ideal S128 .f32) (r : Fin 1000) (c : Fin 128) : rowB128 v (ix2 r c) = v (ix1 c) := by
  unfold rowB128
  rw [broadcastTo_apply _ broadcasts_S1x128_S1000x128 (ix2 r c) (ix2 (0 : Fin 1) c)
    (fun a => by match a with | ⟨0, _⟩ => rfl | ⟨1, _⟩ => rfl)]
  exact shapeCast_apply v shapeCasts_S128_S1x128 _ (ix1 c) (by
    rw [Shape.rowMajor_val_one, Shape.rowMajor_val_two]; show c.val = 0 * 128 + c.val; omega)

theorem rowB64_apply (v : Vec Ideal S64 .f32) (r : Fin 1000) (c : Fin 64) : rowB64 v (ix2 r c) = v (ix1 c) := by
  unfold rowB64
  rw [broadcastTo_apply _ broadcasts_S1x64_S1000x64 (ix2 r c) (ix2 (0 : Fin 1) c)
    (fun a => by match a with | ⟨0, _⟩ => rfl | ⟨1, _⟩ => rfl)]
  exact shapeCast_apply v shapeCasts_S64_S1x64 _ (ix1 c) (by
    rw [Shape.rowMajor_val_one, Shape.rowMajor_val_two]; show c.val = 0 * 64 + c.val; omega)

theorem clamp128_apply (x : FVec Ideal S1000x128 .f32) (i : S1000x128.Idx) : clamp128 x i = Cert.Spec.relu (x i) := rfl
theorem clamp64_apply (x : FVec Ideal S1000x64 .f32) (i : S1000x64.Idx) : clamp64 x i = Cert.Spec.relu (x i) := rfl

/-- The second layer on a block, at an entry: a dense layer on the row. -/
theorem dense128_apply (l : FVec Ideal S1000x128 .bf16) (W : FVec Ideal S128x128 .bf16) (b : Vec Ideal S128 .f32)
    (r : Fin 1000) (c : Fin 128) :
    addf (matmul dot_S1000x128_S128x128_S1000x128_1_0_0_1_n_n none l W (constant S1000x128 .f32 0x00000000#32)) (rowB128 b) (ix2 r c)
      = Cert.Spec.dense (fun k : Fin 128 => l (ix2 r k)) W b c := by
  show FloatOps.matmul (DotDims.plain 1000 128 128) none l W (constant _ .f32 0x00000000#32) (ix2 r c) + rowB128 b (ix2 r c) = _
  rw [plain_matmul_zero, rowB128_apply]; rfl

/-- The third layer on a block, at an entry. -/
theorem dense64_apply (l : FVec Ideal S1000x128 .bf16) (W : FVec Ideal S128x64 .bf16) (b : Vec Ideal S64 .f32)
    (r : Fin 1000) (c : Fin 64) :
    addf (matmul dot_S1000x128_S128x64_S1000x64_1_0_0_1_n_n none l W (constant S1000x64 .f32 0x00000000#32)) (rowB64 b) (ix2 r c)
      = Cert.Spec.dense (fun k : Fin 128 => l (ix2 r k)) W b c := by
  show FloatOps.matmul (DotDims.plain 1000 128 64) none l W (constant _ .f32 0x00000000#32) (ix2 r c) + rowB64 b (ix2 r c) = _
  rw [plain_matmul_zero, rowB64_apply]; rfl

/-- The first pre-activation on a block, at an entry: column `o + c` of the wide product, plus the features' product,
    plus the bias. -/
theorem pre1_apply (o : ℕ) (ho : S1000x2048.Slices ![0, o] S1000x128) (hb : o + 128 ≤ 2048)
    (v19 : FVec Ideal S1000x2048 .f32) (v24 : FVec Ideal S1000x128 .f32) (v25 : Vec Ideal S128 .f32) (r : Fin 1000) (c : Fin 128) :
    addf (addf (extractStridedSlice S1000x128 ![0, o] v19 ho) v24) (rowB128 v25) (ix2 r c)
      = (v19 (ix2 r (⟨o + c.val, by have := c.isLt; omega⟩ : Fin 2048)) + v24 (ix2 r c)) + v25 (ix1 c) := by
  show (extractStridedSlice S1000x128 ![0, o] v19 ho (ix2 r c) + v24 (ix2 r c)) + rowB128 v25 (ix2 r c) = _
  rw [rowB128_apply, slice2_axis1_apply o v19 ho r c (⟨o + c.val, by have := c.isLt; omega⟩ : Fin 2048) rfl]

/-- One neighbour's 64 outputs on a block, at an entry: the three-layer tower on the row's first pre-activation. -/
theorem layerV_apply (o : ℕ) (ho : S1000x2048.Slices ![0, o] S1000x128) (hb : o + 128 ≤ 2048) (v19 : FVec Ideal S1000x2048 .f32) (v24 : FVec Ideal S1000x128 .f32) (v25 : Vec Ideal S128 .f32) (v26 : Vec Ideal S128 .f32) (v27 : Vec Ideal S64 .f32) (v29 : FVec Ideal S128x128 .bf16) (v31 : FVec Ideal S128x64 .bf16)
    (r : Fin 1000) (c : Fin 64) :
    layerV o ho v19 v24 v25 v26 v27 v29 v31 (ix2 r c)
      = Cert.Spec.tower v29 v26 v31 v27
          (fun c₁ : Fin 128 => (v19 (ix2 r (⟨o + c₁.val, by have := c₁.isLt; omega⟩ : Fin 2048)) + v24 (ix2 r c₁)) + v25 (ix1 c₁)) c := by
  unfold layerV Cert.Spec.tower
  simp only [clamp64_apply, clamp128_apply, dense64_apply, dense128_apply, truncf_apply, pre1_apply o ho hb]

/-- A pair's store, at a column of its left half and of its right half. -/
theorem pairV_apply_lo (o₁ : ℕ) (h₁ : S1000x2048.Slices ![0, o₁] S1000x128) (o₂ : ℕ) (h₂ : S1000x2048.Slices ![0, o₂] S1000x128) (v19 : FVec Ideal S1000x2048 .f32) (v24 : FVec Ideal S1000x128 .f32) (v25 : Vec Ideal S128 .f32) (v26 : Vec Ideal S128 .f32) (v27 : Vec Ideal S64 .f32) (v29 : FVec Ideal S128x128 .bf16) (v31 : FVec Ideal S128x64 .bf16)
    (r : Fin 1000) (c : Fin 64) :
    pairV o₁ h₁ o₂ h₂ v19 v24 v25 v26 v27 v29 v31 (ix2 r (⟨c.val, by have := c.isLt; omega⟩ : Fin 128))
      = layerV o₁ h₁ v19 v24 v25 v26 v27 v29 v31 (ix2 r c) := by
  unfold pairV
  exact concatenate_pair_apply_left 1 _ _ concatenates_S1000x64_S1000x64_S1000x128_d1 _ rfl (ix2 r c)
    (fun b => by match b with | ⟨0, _⟩ => rfl | ⟨1, _⟩ => rfl)

theorem pairV_apply_hi (o₁ : ℕ) (h₁ : S1000x2048.Slices ![0, o₁] S1000x128) (o₂ : ℕ) (h₂ : S1000x2048.Slices ![0, o₂] S1000x128) (v19 : FVec Ideal S1000x2048 .f32) (v24 : FVec Ideal S1000x128 .f32) (v25 : Vec Ideal S128 .f32) (v26 : Vec Ideal S128 .f32) (v27 : Vec Ideal S64 .f32) (v29 : FVec Ideal S128x128 .bf16) (v31 : FVec Ideal S128x64 .bf16)
    (r : Fin 1000) (c : Fin 64) :
    pairV o₁ h₁ o₂ h₂ v19 v24 v25 v26 v27 v29 v31 (ix2 r (⟨64 + c.val, by have := c.isLt; omega⟩ : Fin 128))
      = layerV o₂ h₂ v19 v24 v25 v26 v27 v29 v31 (ix2 r c) := by
  unfold pairV
  exact concatenate_pair_apply_right 1 _ _ concatenates_S1000x64_S1000x64_S1000x128_d1 _ rfl rfl (ix2 r c)
    (fun b hb => by match b with | ⟨0, _⟩ => rfl | ⟨1, _⟩ => exact absurd rfl hb)
    (by show c.val + 64 = 64 + c.val; omega)

end AtIdeal

end Cert.KernelIdeal.Body

end
-- ==== Proof.BodyOut.lean ====
/-
  What the eight stores leave in the feature output's buffer, entry by entry. The buffer is 1000 rows of 1024 columns;
  store `j` (of 8) fills columns `128 j … 128 j + 127` with neighbours `2j` and `2j+1` side by side, so column
  `64 k + c` of a row holds output `c` of neighbour `k`. The pieces tile the buffer: a column lies in exactly one of them.
-/
import proofs.«155941_j4294967296690_2_alg».proof.Proof.Body

noncomputable section

open scoped BigOperators

namespace Cert.KernelIdeal.Body

open Cert.KernelIdeal Cert.KernelIdeal.Gen Idealize.ShloMosaic Idealize.ShloMosaic.TcCoe Idealize.ShloMosaic.ValueIdx

/-- A column outside `o … o + 127` is not in the store that fills those columns. -/
theorem not_mem_piece (o : ℕ) (inb : ∀ a : Fin S1000x1024.rank, (![0, o] : Fin 2 → ℕ) a + S1000x128.size a ≤ S1000x1024.size a)
    (r : Fin 1000) (n : Fin 1024) (h : n.val < o ∨ o + 128 ≤ n.val) :
    ix2 r n ∉ (Rect.unit (s := S1000x1024) ![0, o] S1000x128.size inb).set := by
  rw [Rect.mem_set_unit]
  intro hm
  have h1 := hm (1 : Fin 2)
  change o ≤ n.val ∧ n.val < o + 128 at h1
  omega

/-- Entry `(r, e)` of the store that fills columns `o … o + 127` lands at column `o + e` of row `r`. -/
theorem emb_piece (o : ℕ) (inb : ∀ a : Fin S1000x1024.rank, (![0, o] : Fin 2 → ℕ) a + S1000x128.size a ≤ S1000x1024.size a)
    (r : Fin 1000) (e : Fin 128) (n : Fin 1024) (h : n.val = o + e.val) :
    (Rect.unit (s := S1000x1024) ![0, o] S1000x128.size inb).emb (ix2 r e) = ix2 r n := by
  funext a
  apply Fin.ext
  match a with
  | ⟨0, _⟩ => show 0 + 1 * r.val = r.val; omega
  | ⟨1, _⟩ => show o + 1 * e.val = n.val; omega

/-! The eight stores tile the buffer: over any eight values, column `128 j + e` reads store `j` at `e`. -/

/-- Reading past a store that does not hold the column. -/
theorem canon_skip (o : ℕ) (inb : ∀ a : Fin S1000x1024.rank, (![0, o] : Fin 2 → ℕ) a + S1000x128.size a ≤ S1000x1024.size a)
    (w : Vec Ideal S1000x128 .f32) (L : List (View.Piece (Elt Ideal) S1000x1024 .f32)) (r : Fin 1000) (n : Fin 1024)
    (h : n.val < o ∨ o + 128 ≤ n.val) :
    View.canon ((⟨Rect.unit (s := S1000x1024) ![0, o] S1000x128.size inb, w⟩ : View.Piece (Elt Ideal) S1000x1024 .f32) :: L) (ix2 r n)
      = View.canon L (ix2 r n) :=
  View.canon_cons_of_not_mem _ L (not_mem_piece o inb r n h)

/-- Reading the store that holds the column. -/
theorem canon_hit (o : ℕ) (inb : ∀ a : Fin S1000x1024.rank, (![0, o] : Fin 2 → ℕ) a + S1000x128.size a ≤ S1000x1024.size a)
    (w : Vec Ideal S1000x128 .f32) (L : List (View.Piece (Elt Ideal) S1000x1024 .f32)) (r : Fin 1000) (e : Fin 128) (n : Fin 1024)
    (hn : n.val = o + e.val) :
    View.canon ((⟨Rect.unit (s := S1000x1024) ![0, o] S1000x128.size inb, w⟩ : View.Piece (Elt Ideal) S1000x1024 .f32) :: L) (ix2 r n)
      = w (ix2 r e) := by
  have h := View.canon_cons_emb (Rect.unit (s := S1000x1024) ![0, o] S1000x128.size inb) w L (ix2 r e)
  rw [emb_piece o inb r e n hn] at h
  exact h

theorem canon8_0 (p0 p1 p2 p3 p4 p5 p6 p7 : Vec Ideal S1000x128 .f32) (r : Fin 1000) (e : Fin 128) (n : Fin 1024) (hn : n.val = 0 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p0 (ix2 r e) := by
  have he := e.isLt
  rw [canon_skip 896 _ _ _ r n (by omega),
    canon_skip 768 _ _ _ r n (by omega),
    canon_skip 640 _ _ _ r n (by omega),
    canon_skip 512 _ _ _ r n (by omega),
    canon_skip 384 _ _ _ r n (by omega),
    canon_skip 256 _ _ _ r n (by omega),
    canon_skip 128 _ _ _ r n (by omega),
    canon_hit 0 _ _ _ r e n hn]

theorem canon8_1 (p0 p1 p2 p3 p4 p5 p6 p7 : Vec Ideal S1000x128 .f32) (r : Fin 1000) (e : Fin 128) (n : Fin 1024) (hn : n.val = 128 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p1 (ix2 r e) := by
  have he := e.isLt
  rw [canon_skip 896 _ _ _ r n (by omega),
    canon_skip 768 _ _ _ r n (by omega),
    canon_skip 640 _ _ _ r n (by omega),
    canon_skip 512 _ _ _ r n (by omega),
    canon_skip 384 _ _ _ r n (by omega),
    canon_skip 256 _ _ _ r n (by omega),
    canon_hit 128 _ _ _ r e n hn]

theorem canon8_2 (p0 p1 p2 p3 p4 p5 p6 p7 : Vec Ideal S1000x128 .f32) (r : Fin 1000) (e : Fin 128) (n : Fin 1024) (hn : n.val = 256 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p2 (ix2 r e) := by
  have he := e.isLt
  rw [canon_skip 896 _ _ _ r n (by omega),
    canon_skip 768 _ _ _ r n (by omega),
    canon_skip 640 _ _ _ r n (by omega),
    canon_skip 512 _ _ _ r n (by omega),
    canon_skip 384 _ _ _ r n (by omega),
    canon_hit 256 _ _ _ r e n hn]

theorem canon8_3 (p0 p1 p2 p3 p4 p5 p6 p7 : Vec Ideal S1000x128 .f32) (r : Fin 1000) (e : Fin 128) (n : Fin 1024) (hn : n.val = 384 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p3 (ix2 r e) := by
  have he := e.isLt
  rw [canon_skip 896 _ _ _ r n (by omega),
    canon_skip 768 _ _ _ r n (by omega),
    canon_skip 640 _ _ _ r n (by omega),
    canon_skip 512 _ _ _ r n (by omega),
    canon_hit 384 _ _ _ r e n hn]

theorem canon8_4 (p0 p1 p2 p3 p4 p5 p6 p7 : Vec Ideal S1000x128 .f32) (r : Fin 1000) (e : Fin 128) (n : Fin 1024) (hn : n.val = 512 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p4 (ix2 r e) := by
  have he := e.isLt
  rw [canon_skip 896 _ _ _ r n (by omega),
    canon_skip 768 _ _ _ r n (by omega),
    canon_skip 640 _ _ _ r n (by omega),
    canon_hit 512 _ _ _ r e n hn]

theorem canon8_5 (p0 p1 p2 p3 p4 p5 p6 p7 : Vec Ideal S1000x128 .f32) (r : Fin 1000) (e : Fin 128) (n : Fin 1024) (hn : n.val = 640 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p5 (ix2 r e) := by
  have he := e.isLt
  rw [canon_skip 896 _ _ _ r n (by omega),
    canon_skip 768 _ _ _ r n (by omega),
    canon_hit 640 _ _ _ r e n hn]

theorem canon8_6 (p0 p1 p2 p3 p4 p5 p6 p7 : Vec Ideal S1000x128 .f32) (r : Fin 1000) (e : Fin 128) (n : Fin 1024) (hn : n.val = 768 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p6 (ix2 r e) := by
  have he := e.isLt
  rw [canon_skip 896 _ _ _ r n (by omega),
    canon_hit 768 _ _ _ r e n hn]

theorem canon8_7 (p0 p1 p2 p3 p4 p5 p6 p7 : Vec Ideal S1000x128 .f32) (r : Fin 1000) (e : Fin 128) (n : Fin 1024) (hn : n.val = 896 + e.val) :
    View.canon ([⟨r0_16, p7⟩, ⟨r0_15, p6⟩, ⟨r0_14, p5⟩, ⟨r0_13, p4⟩, ⟨r0_12, p3⟩, ⟨r0_11, p2⟩, ⟨r0_10, p1⟩, ⟨r0_9, p0⟩] : List (View.Piece (Elt Ideal) S1000x1024 .f32)) (ix2 r n) = p7 (ix2 r e) := by
  have he := e.isLt
  rw [canon_hit 896 _ _ _ r e n hn]

theorem outV_layer_0 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨0 + c.val, by have := c.isLt; omega⟩ : Fin 1024))
      = layerV 0 slices_S1000x2048_o0_0_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_0 _ _ _ _ _ _ _ _ r (⟨c.val, by omega⟩ : Fin 128) _ (by show 0 + c.val = 0 + c.val; omega)).trans
    (pairV_apply_lo _ _ _ _ _ _ _ _ _ _ _ r c)

theorem outV_layer_1 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨64 + c.val, by have := c.isLt; omega⟩ : Fin 1024))
      = layerV 128 slices_S1000x2048_o0_128_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_0 _ _ _ _ _ _ _ _ r (⟨64 + c.val, by omega⟩ : Fin 128) _ (by show 64 + c.val = 0 + (64 + c.val); omega)).trans
    (pairV_apply_hi _ _ _ _ _ _ _ _ _ _ _ r c)

theorem outV_layer_2 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨128 + c.val, by have := c.isLt; omega⟩ : Fin 1024))
      = layerV 256 slices_S1000x2048_o0_256_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_1 _ _ _ _ _ _ _ _ r (⟨c.val, by omega⟩ : Fin 128) _ (by show 128 + c.val = 128 + c.val; omega)).trans
    (pairV_apply_lo _ _ _ _ _ _ _ _ _ _ _ r c)

theorem outV_layer_3 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨192 + c.val, by have := c.isLt; omega⟩ : Fin 1024))
      = layerV 384 slices_S1000x2048_o0_384_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_1 _ _ _ _ _ _ _ _ r (⟨64 + c.val, by omega⟩ : Fin 128) _ (by show 192 + c.val = 128 + (64 + c.val); omega)).trans
    (pairV_apply_hi _ _ _ _ _ _ _ _ _ _ _ r c)

theorem outV_layer_4 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨256 + c.val, by have := c.isLt; omega⟩ : Fin 1024))
      = layerV 512 slices_S1000x2048_o0_512_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_2 _ _ _ _ _ _ _ _ r (⟨c.val, by omega⟩ : Fin 128) _ (by show 256 + c.val = 256 + c.val; omega)).trans
    (pairV_apply_lo _ _ _ _ _ _ _ _ _ _ _ r c)

theorem outV_layer_5 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨320 + c.val, by have := c.isLt; omega⟩ : Fin 1024))
      = layerV 640 slices_S1000x2048_o0_640_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_2 _ _ _ _ _ _ _ _ r (⟨64 + c.val, by omega⟩ : Fin 128) _ (by show 320 + c.val = 256 + (64 + c.val); omega)).trans
    (pairV_apply_hi _ _ _ _ _ _ _ _ _ _ _ r c)

theorem outV_layer_6 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨384 + c.val, by have := c.isLt; omega⟩ : Fin 1024))
      = layerV 768 slices_S1000x2048_o0_768_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_3 _ _ _ _ _ _ _ _ r (⟨c.val, by omega⟩ : Fin 128) _ (by show 384 + c.val = 384 + c.val; omega)).trans
    (pairV_apply_lo _ _ _ _ _ _ _ _ _ _ _ r c)

theorem outV_layer_7 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨448 + c.val, by have := c.isLt; omega⟩ : Fin 1024))
      = layerV 896 slices_S1000x2048_o0_896_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_3 _ _ _ _ _ _ _ _ r (⟨64 + c.val, by omega⟩ : Fin 128) _ (by show 448 + c.val = 384 + (64 + c.val); omega)).trans
    (pairV_apply_hi _ _ _ _ _ _ _ _ _ _ _ r c)

theorem outV_layer_8 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨512 + c.val, by have := c.isLt; omega⟩ : Fin 1024))
      = layerV 1024 slices_S1000x2048_o0_1024_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_4 _ _ _ _ _ _ _ _ r (⟨c.val, by omega⟩ : Fin 128) _ (by show 512 + c.val = 512 + c.val; omega)).trans
    (pairV_apply_lo _ _ _ _ _ _ _ _ _ _ _ r c)

theorem outV_layer_9 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨576 + c.val, by have := c.isLt; omega⟩ : Fin 1024))
      = layerV 1152 slices_S1000x2048_o0_1152_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_4 _ _ _ _ _ _ _ _ r (⟨64 + c.val, by omega⟩ : Fin 128) _ (by show 576 + c.val = 512 + (64 + c.val); omega)).trans
    (pairV_apply_hi _ _ _ _ _ _ _ _ _ _ _ r c)

theorem outV_layer_10 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨640 + c.val, by have := c.isLt; omega⟩ : Fin 1024))
      = layerV 1280 slices_S1000x2048_o0_1280_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_5 _ _ _ _ _ _ _ _ r (⟨c.val, by omega⟩ : Fin 128) _ (by show 640 + c.val = 640 + c.val; omega)).trans
    (pairV_apply_lo _ _ _ _ _ _ _ _ _ _ _ r c)

theorem outV_layer_11 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨704 + c.val, by have := c.isLt; omega⟩ : Fin 1024))
      = layerV 1408 slices_S1000x2048_o0_1408_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_5 _ _ _ _ _ _ _ _ r (⟨64 + c.val, by omega⟩ : Fin 128) _ (by show 704 + c.val = 640 + (64 + c.val); omega)).trans
    (pairV_apply_hi _ _ _ _ _ _ _ _ _ _ _ r c)

theorem outV_layer_12 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨768 + c.val, by have := c.isLt; omega⟩ : Fin 1024))
      = layerV 1536 slices_S1000x2048_o0_1536_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_6 _ _ _ _ _ _ _ _ r (⟨c.val, by omega⟩ : Fin 128) _ (by show 768 + c.val = 768 + c.val; omega)).trans
    (pairV_apply_lo _ _ _ _ _ _ _ _ _ _ _ r c)

theorem outV_layer_13 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨832 + c.val, by have := c.isLt; omega⟩ : Fin 1024))
      = layerV 1664 slices_S1000x2048_o0_1664_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_6 _ _ _ _ _ _ _ _ r (⟨64 + c.val, by omega⟩ : Fin 128) _ (by show 832 + c.val = 768 + (64 + c.val); omega)).trans
    (pairV_apply_hi _ _ _ _ _ _ _ _ _ _ _ r c)

theorem outV_layer_14 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨896 + c.val, by have := c.isLt; omega⟩ : Fin 1024))
      = layerV 1792 slices_S1000x2048_o0_1792_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_7 _ _ _ _ _ _ _ _ r (⟨c.val, by omega⟩ : Fin 128) _ (by show 896 + c.val = 896 + c.val; omega)).trans
    (pairV_apply_lo _ _ _ _ _ _ _ _ _ _ _ r c)

theorem outV_layer_15 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (r : Fin 1000) (c : Fin 64) :
    outV x0 x1 x2 x3 x4 x5 x6 x7 x8 x9 (ix2 r (⟨960 + c.val, by have := c.isLt; omega⟩ : Fin 1024))
      = layerV 1920 slices_S1000x2048_o0_1920_S1000x128 (a_all x0 x1 x2 x3) (b_base x0 x4) (View.ld x5 r0_6) (View.ld x7 r0_6)
          (View.ld x9 r0_7) (k0_pay6 (View.ld x6 r0_5)) (k0_pay7 (View.ld x8 r0_8)) (ix2 r c) := by
  have hc := c.isLt
  unfold outV
  exact (canon8_7 _ _ _ _ _ _ _ _ r (⟨64 + c.val, by omega⟩ : Fin 128) _ (by show 960 + c.val = 896 + (64 + c.val); omega)).trans
    (pairV_apply_hi _ _ _ _ _ _ _ _ _ _ _ r c)

end Cert.KernelIdeal.Body

end
-- ==== Proof.BodyIn.lean ====
/-
  The first stage of one grid point, entry by entry over the extended reals: every load reads a whole staged block;
  the decoded coordinates of row `r` are the specification's `rel` on that row (a 32 → 48 dense layer, then `tanh`);
  the point output is `rel · ¼`; the wide product is `∑ j, rel j · B j n` against the fourth block `B`; the features'
  product is `∑ f, x (32 + f) · C f c` against the fifth block `C`; and the bf16 copies of the second and third matrices
  are the matrices themselves, a change of format being the identity.
-/
import proofs.«155941_j4294967296690_2_alg».proof.Proof.Body

noncomputable section

open scoped BigOperators

namespace Cert.KernelIdeal.BodyIn

open Cert.KernelIdeal Cert.KernelIdeal.Gen Cert.KernelIdeal.Body Idealize.ShloMosaic Idealize.ShloMosaic.TcCoe Idealize.ShloMosaic.ValueIdx

/-! ## A load of a whole buffer reads the buffer -/

section Loads

variable {F : FTy → Type} [FloatOps F]

theorem ld_r0_0 (x : Vec F S1000x160 .f32) : View.ld x r0_0 = x :=
  View.ld_unit_zero (by funext a; fin_cases a <;> rfl) _ x
theorem ld_r0_1 (x : Vec F S32x48 .f32) : View.ld x r0_1 = x :=
  View.ld_unit_zero (by funext a; fin_cases a <;> rfl) _ x
theorem ld_r0_2 (x : Vec F S48 .f32) : View.ld x r0_2 = x :=
  View.ld_unit_zero (by funext a; fin_cases a <;> rfl) _ x
theorem ld_r0_4 (x : Vec F S48x2048 .f32) : View.ld x r0_4 = x :=
  View.ld_unit_zero (by funext a; fin_cases a <;> rfl) _ x
theorem ld_r0_5 (x : Vec F S128x128 .f32) : View.ld x r0_5 = x :=
  View.ld_unit_zero (by funext a; fin_cases a <;> rfl) _ x
theorem ld_r0_6 (x : Vec F S128 .f32) : View.ld x r0_6 = x :=
  View.ld_unit_zero (by funext a; fin_cases a <;> rfl) _ x
theorem ld_r0_7 (x : Vec F S64 .f32) : View.ld x r0_7 = x :=
  View.ld_unit_zero (by funext a; fin_cases a <;> rfl) _ x
theorem ld_r0_8 (x : Vec F S128x64 .f32) : View.ld x r0_8 = x :=
  View.ld_unit_zero (by funext a; fin_cases a <;> rfl) _ x

end Loads

/-! ## The decoded coordinates and the two first-layer products, entry by entry -/

/-- The 48-wide bias laid along the rows, at an entry. -/
theorem rowB48_apply (v : Vec Ideal S48 .f32) (r : Fin 1000) (c : Fin 48) :
    broadcastTo S1000x48 (shapeCast S1x48 v shapeCasts_S48_S1x48) broadcasts_S1x48_S1000x48 (ix2 r c) = v (ix1 c) := by
  rw [broadcastTo_apply _ broadcasts_S1x48_S1000x48 (ix2 r c) (ix2 (0 : Fin 1) c)
    (fun a => by match a with | ⟨0, _⟩ => rfl | ⟨1, _⟩ => rfl)]
  exact shapeCast_apply v shapeCasts_S48_S1x48 _ (ix1 c) (by
    rw [Shape.rowMajor_val_one, Shape.rowMajor_val_two]; show c.val = 0 * 48 + c.val; omega)

/-- The decoded coordinates of row r of a block: the specification's on that row. -/
theorem pay2_apply (v0 : Vec Ideal S1000x160 .f32) (v3 : Vec Ideal S32x48 .f32) (v7 : Vec Ideal S48 .f32)
    (r : Fin 1000) (j : Fin 48) :
    k0_pay2 v0 v3 v7 (ix2 r j) = Cert.Spec.rel v3 v7 (fun i : Fin 160 => v0 (ix2 r i)) j := by
  unfold k0_pay2 Cert.Spec.rel Cert.Spec.dense
  show Ideal.tanh (FloatOps.matmul (F := Ideal) (DotDims.plain 1000 32 48) none _ _ (constant _ .f32 0x00000000#32) (ix2 r j)
    + broadcastTo S1000x48 (shapeCast S1x48 v7 shapeCasts_S48_S1x48) broadcasts_S1x48_S1000x48 (ix2 r j)) = _
  rw [plain_matmul_zero, rowB48_apply]
  congr 2
  refine Finset.sum_congr rfl fun k _ => ?_
  show extractStridedSlice S1000x32 ![0, 0] v0 slices_S1000x160_o0_0_S1000x32 (ix2 r k) * v3 (ix2 k j) = _
  rw [slice2_axis1_apply 0 v0 slices_S1000x160_o0_0_S1000x32 r k (Cert.Spec.ptIdx k) (by simp)]

/-- The wide product at row r, column n: the decoded coordinates against column n of the block-diagonal matrix. -/
theorem pay4_apply (v0 : Vec Ideal S1000x160 .f32) (v3 : Vec Ideal S32x48 .f32) (v7 : Vec Ideal S48 .f32)
    (v16 : Vec Ideal S48x2048 .f32) (r : Fin 1000) (n : Fin 2048) :
    k0_pay4 v0 v3 v7 v16 (ix2 r n)
      = ∑ j : Fin 48, Cert.Spec.rel v3 v7 (fun i : Fin 160 => v0 (ix2 r i)) j * v16 (ix2 j n) := by
  unfold k0_pay4
  show FloatOps.matmul (F := Ideal) (DotDims.plain 1000 48 2048) none _ _ (constant _ .f32 0x00000000#32) (ix2 r n) = _
  rw [plain_matmul_zero]
  refine Finset.sum_congr rfl fun j _ => ?_
  show k0_pay2 v0 v3 v7 (ix2 r j) * shapeCast S48x2048 v16 shapeCasts_S48x2048_S48x2048 (ix2 j n) = _
  rw [pay2_apply, shapeCast_self]

/-- The features' product at row r, column c: the row's 128 features against column c of the lower rows. -/
theorem pay5_apply (v0 : Vec Ideal S1000x160 .f32) (v20 : Vec Ideal S128x128 .f32) (r : Fin 1000) (c : Fin 128) :
    k0_pay5 v0 v20 (ix2 r c) = ∑ f : Fin 128, v0 (ix2 r (Cert.Spec.featIdx f)) * v20 (ix2 f c) := by
  unfold k0_pay5
  show FloatOps.matmul (F := Ideal) (DotDims.plain 1000 128 128) none _ _ (constant _ .f32 0x00000000#32) (ix2 r c) = _
  rw [plain_matmul_zero]
  refine Finset.sum_congr rfl fun f _ => ?_
  show extractStridedSlice S1000x128 ![0, 32] v0 slices_S1000x160_o0_32_S1000x128 (ix2 r f)
    * shapeCast S128x128 v20 shapeCasts_S128x128_S128x128 (ix2 f c) = _
  rw [slice2_axis1_apply 32 v0 slices_S1000x160_o0_32_S1000x128 r f (Cert.Spec.featIdx f) (by simp), shapeCast_self]

/-- The stored points at row r, column j: the decoded coordinate scaled by the radius. -/
theorem pay3_apply (v0 : Vec Ideal S1000x160 .f32) (v3 : Vec Ideal S32x48 .f32) (v7 : Vec Ideal S48 .f32)
    (r : Fin 1000) (j : Fin 48) :
    k0_pay3 v0 v3 v7 (ix2 r j) = Cert.Spec.rel v3 v7 (fun i : Fin 160 => v0 (ix2 r i)) j * Cert.Spec.quarter := by
  have hs : Scalar.ofBits (F := Ideal) .f32 0x3E800000#32 = Cert.Spec.quarter := rfl
  unfold k0_pay3
  show k0_pay2 v0 v3 v7 (ix2 r j) * Scalar.ofBits (F := Ideal) .f32 0x3E800000#32 = _
  rw [pay2_apply, hs]

section Block

variable (x0 : Vec Ideal S1000x160 .f32) (x1 : Vec Ideal S32x48 .f32) (x2 : Vec Ideal S48 .f32)
  (x3 : Vec Ideal S48x2048 .f32) (x4 : Vec Ideal S128x128 .f32) (x5 : Vec Ideal S128 .f32)
  (x6 : Vec Ideal S128x128 .f32) (x7 : Vec Ideal S128 .f32) (x8 : Vec Ideal S128x64 .f32) (x9 : Vec Ideal S64 .f32)
  (r : Fin 1000)

/-- The wide product of the loaded blocks, at row r and column n. -/
theorem a_all_apply (n : Fin 2048) :
    a_all x0 x1 x2 x3 (ix2 r n)
      = ∑ j : Fin 48, Cert.Spec.rel x1 x2 (fun i : Fin 160 => x0 (ix2 r i)) j * x3 (ix2 j n) := by
  unfold a_all
  rw [ld_r0_0, ld_r0_1, ld_r0_2, ld_r0_4]
  exact pay4_apply x0 x1 x2 x3 r n

/-- The features' product of the loaded blocks, at row r and column c. -/
theorem b_base_apply (c : Fin 128) :
    b_base x0 x4 (ix2 r c) = ∑ f : Fin 128, x0 (ix2 r (Cert.Spec.featIdx f)) * x4 (ix2 f c) := by
  unfold b_base
  rw [ld_r0_0, ld_r0_5]
  exact pay5_apply x0 x4 r c

/-- What the body leaves in the points output's buffer, at row r and column j. -/
theorem out11_apply (j : Fin 48) :
    Gen.out0_11 x0 x1 x2 x3 x4 x5 x6 x7 x8 x9 (ix2 r j)
      = Cert.Spec.rel x1 x2 (fun i : Fin 160 => x0 (ix2 r i)) j * Cert.Spec.quarter := by
  unfold Gen.out0_11
  rw [View.canon_unit_zero (S := S1000x48) (off := ![0, 0]) (by funext a; fin_cases a <;> rfl)
    inb_S1000x48_S1000x48_0_0 _, ld_r0_0, ld_r0_1, ld_r0_2]
  exact pay3_apply x0 x1 x2 r j

/-- The second and third matrices as the body uses them: their casts to the narrower float are the identity
    over the extended reals. -/
theorem w2_eq : (k0_pay6 (View.ld x6 r0_5) : S128x128.Idx → EReal) = x6 := by
  rw [ld_r0_5]
  funext i
  exact truncf_apply x6 _ i

theorem w3_eq : (k0_pay7 (View.ld x8 r0_8) : S128x64.Idx → EReal) = x8 := by
  rw [ld_r0_8]
  funext i
  exact truncf_apply x8 _ i

end Block

end Cert.KernelIdeal.BodyIn

end
-- ==== Proof.Algebra.lean ====
/-
  The law that joins the kernel's arrangement of the first layer to the reference's.

  The reference multiplies neighbour `k`'s 131-entry row (three coordinates, then 128 features) with `W1`. The kernel
  multiplies all 48 coordinates with a block-diagonal matrix and adds the features' product with the last 128 rows of
  `W1`. Entry `(3a+d, 128k+c)` of the block-diagonal matrix is `W1 d c` when `a = k` and `0 · W1 d c = 0` otherwise, and
  `x · 0 = 0` for every extended real `x`, so of the 48 terms only neighbour `k`'s three survive; and a sum over 131
  indices is the sum over its first three plus the sum over its last 128. Sums of extended reals commute and
  associate, so nothing here asks for a finite entry.
-/
import proofs.«155941_j4294967296690_2_alg».proof.Proof.Spec

noncomputable section

open scoped BigOperators

namespace Cert.Spec

open Idealize.ShloMosaic Idealize.ShloMosaic.ValueIdx

/-- Two entries of a matrix at indices with equal coordinates. -/
theorem mat_congr {a b : ℕ} (W : Mat a b) (i i' : Fin a) (j j' : Fin b) (hi : i.val = i'.val) (hj : j.val = j'.val) :
    W (ix2 i j) = W (ix2 i' j') := by
  obtain rfl : i = i' := Fin.ext hi
  obtain rfl : j = j' := Fin.ext hj
  rfl

/-- On the diagonal block the block-diagonal matrix is `W1`'s top three rows. -/
theorem kron_diag (W1 : Mat 131 128) (k : Fin 16) (d : Fin 3) (c : Fin 128) :
    kron W1 (relIdx k d) (bdCol k c) = W1 (ix2 (w1Top d) c) := by
  have hd := d.isLt; have hc := c.isLt
  unfold kron
  rw [if_pos (by simp only [relIdx_val, bdCol_val]; omega), one_mul]
  exact mat_congr W1 _ _ _ _ (by simp only [relIdx_val, w1Top_val]; omega) (by simp only [bdCol_val]; omega)

/-- Off the diagonal block it is zero. -/
theorem kron_off (W1 : Mat 131 128) (a k : Fin 16) (d : Fin 3) (c : Fin 128) (h : a ≠ k) :
    kron W1 (relIdx a d) (bdCol k c) = 0 := by
  have hd := d.isLt; have hc := c.isLt
  unfold kron
  rw [if_neg (by simp only [relIdx_val, bdCol_val]; intro e; exact h (Fin.ext (by omega))), zero_mul]

/-- Against column `128 k + c` of the block-diagonal matrix only neighbour `k`'s three coordinates count. -/
theorem sum_kron (g : Fin 48 → EReal) (W1 : Mat 131 128) (k : Fin 16) (c : Fin 128) :
    ∑ j : Fin 48, g j * kron W1 j (bdCol k c) = ∑ d : Fin 3, g (relIdx k d) * W1 (ix2 (w1Top d) c) := by
  have e : ∀ p : Fin 16 × Fin 3, (finProdFinEquiv p : Fin (16 * 3)) = relIdx p.1 p.2 := fun p =>
    Fin.ext (by simp only [finProdFinEquiv_apply_val, relIdx_val]; omega)
  show ∑ j : Fin (16 * 3), g j * kron W1 j (bdCol k c) = _
  rw [← Equiv.sum_comp (finProdFinEquiv (m := 16) (n := 3)), Fintype.sum_prod_type]
  simp only [e]
  rw [Finset.sum_eq_single k]
  · exact Finset.sum_congr rfl fun d _ => by rw [kron_diag]
  · intro a _ ha
    exact Finset.sum_eq_zero fun d _ => by rw [kron_off W1 a k d c ha, mul_zero]
  · intro h; exact absurd (Finset.mem_univ k) h

section

variable (Wn : Mat 32 48) (bn : Vct 48) (W1 : Mat 131 128) (b1 : Vct 128) (x : Fin 160 → EReal)

/-- The first three entries of a neighbour's row are its coordinates. -/
theorem cat_top (k : Fin 16) (d : Fin 3) : cat Wn bn x k (w1Top d) = rel Wn bn x (relIdx k d) := by
  unfold cat
  rw [dif_pos (show (w1Top d).val < 3 from d.isLt)]
  exact congrArg (fun d' : Fin 3 => rel Wn bn x (relIdx k d')) (Fin.ext rfl)

/-- The others are the point's features. -/
theorem cat_bot (k : Fin 16) (f : Fin 128) : cat Wn bn x k (w1Bot f) = x (featIdx f) := by
  unfold cat
  rw [dif_neg (show ¬ (w1Bot f).val < 3 by simp only [w1Bot_val]; omega)]
  exact congrArg x (Fin.ext (by simp only [featIdx_val, w1Bot_val]; omega))

/-- THE LAW: the kernel's first pre-activation is the reference's. -/
theorem preK_eq (k : Fin 16) (c : Fin 128) : preK Wn bn W1 b1 x k c = pre Wn bn W1 b1 x k c := by
  unfold preK pre dense
  rw [sum_kron]
  refine congrArg (· + b1 (ix1 c)) ?_
  have split : ∑ j : Fin (3 + 128), cat Wn bn x k j * W1 (ix2 j c)
      = ∑ d : Fin 3, cat Wn bn x k (Fin.castAdd 128 d) * W1 (ix2 (Fin.castAdd 128 d) c)
        + ∑ f : Fin 128, cat Wn bn x k (Fin.natAdd 3 f) * W1 (ix2 (Fin.natAdd 3 f) c) := Fin.sum_univ_add _
  refine Eq.trans ?_ split.symm
  refine congrArg₂ (· + ·) (Finset.sum_congr rfl fun d _ => ?_) (Finset.sum_congr rfl fun f _ => ?_)
  · rw [show (Fin.castAdd 128 d : Fin (3 + 128)) = w1Top d from Fin.ext rfl, cat_top]
  · rw [show (Fin.natAdd 3 f : Fin (3 + 128)) = w1Bot f from Fin.ext rfl, cat_bot]

end

end Cert.Spec

end
-- ==== Proof.BodyFc3.lean ====
/-
  One grid point's feature output, entry by entry, is the specification: column `64 k + c` of row `r` of the block holds
  output `c` of the pair (point `r` of the block, neighbour `k`). The store that holds the column is neighbour `k`'s layer
  (the tiling of the buffer); the layer is the three-layer tower on the row's first pre-activation; and that
  pre-activation — columns `128 k …` of the product with the block-diagonal matrix, plus the features' product, plus the
  bias — is the reference's, by the law that a product with a zero entry vanishes and a sum splits.
-/
import proofs.«155941_j4294967296690_2_alg».proof.Proof.BodyOut
import proofs.«155941_j4294967296690_2_alg».proof.Proof.BodyIn
import proofs.«155941_j4294967296690_2_alg».proof.Proof.Algebra

noncomputable section

open scoped BigOperators

namespace Cert.KernelIdeal.Body

open Cert.KernelIdeal Cert.KernelIdeal.Gen Cert.KernelIdeal.BodyIn Idealize.ShloMosaic Idealize.ShloMosaic.TcCoe Idealize.ShloMosaic.ValueIdx

/-- Neighbour `k`'s layer on the block, at an entry, is the specification's output of the pair, when the fourth block is
    the block-diagonal matrix of `W1` and the fifth its lower 128 rows. -/
theorem layer_is_fc3 (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (W1 : Cert.Spec.Mat 131 128)
    (h3 : ∀ (j : Fin 48) (n : Fin 2048), x3 (ix2 j n) = Cert.Spec.kron W1 j n)
    (h4 : ∀ (f e : Fin 128), x4 (ix2 f e) = W1 (ix2 (Cert.Spec.w1Bot f) e))
    (r : Fin 1000) (k : Fin 16) (c : Fin 64) (o : ℕ) (ho : S1000x2048.Slices ![0, o] S1000x128) (hk : o = 128 * k.val) :
    layerV o ho (a_all x0 x1 x2 x3) (b_base x0 x4) (View.ld x5 r0_6) (View.ld x7 r0_6) (View.ld x9 r0_7)
        (k0_pay6 (View.ld x6 r0_5)) (k0_pay7 (View.ld x8 r0_8)) (ix2 r c)
      = Cert.Spec.fc3 x1 x2 W1 x5 x6 x7 x8 x9 (fun i : Fin 160 => x0 (ix2 r i)) k c := by
  have hkl := k.isLt
  subst hk
  rw [layerV_apply (128 * k.val) ho (by omega), ld_r0_6, ld_r0_6, ld_r0_7, w2_eq, w3_eq]
  unfold Cert.Spec.fc3
  refine congrArg (fun p => Cert.Spec.tower x6 x7 x8 x9 p c) (funext fun c₁ => ?_)
  rw [← Cert.Spec.preK_eq]
  unfold Cert.Spec.preK
  rw [a_all_apply, b_base_apply]
  simp only [h3, h4]
  rfl

/-- What a grid point leaves in the feature output's buffer, at column `64 k + c` of row `r`. -/
theorem out10_apply (x0 : Vec Ideal S1000x160 .f32) (x1 : Vec Ideal S32x48 .f32) (x2 : Vec Ideal S48 .f32) (x3 : Vec Ideal S48x2048 .f32) (x4 : Vec Ideal S128x128 .f32) (x5 : Vec Ideal S128 .f32) (x6 : Vec Ideal S128x128 .f32) (x7 : Vec Ideal S128 .f32) (x8 : Vec Ideal S128x64 .f32) (x9 : Vec Ideal S64 .f32) (W1 : Cert.Spec.Mat 131 128)
    (h3 : ∀ (j : Fin 48) (n : Fin 2048), x3 (ix2 j n) = Cert.Spec.kron W1 j n)
    (h4 : ∀ (f e : Fin 128), x4 (ix2 f e) = W1 (ix2 (Cert.Spec.w1Bot f) e))
    (r : Fin 1000) (k : Fin 16) (c : Fin 64) :
    Gen.out0_10 x0 x1 x2 x3 x4 x5 x6 x7 x8 x9 (ix2 r (⟨64 * k.val + c.val, by have := k.isLt; have := c.isLt; omega⟩ : Fin 1024))
      = Cert.Spec.fc3 x1 x2 W1 x5 x6 x7 x8 x9 (fun i : Fin 160 => x0 (ix2 r i)) k c := by
  rw [out0_10_eq]
  match k with
  | ⟨0, hK⟩ =>
    exact (outV_layer_0 x0 x1 x2 x3 x4 x5 x6 x7 x8 x9 r c).trans
      (layer_is_fc3 x0 x1 x2 x3 x4 x5 x6 x7 x8 x9 W1 h3 h4 r ⟨0, hK⟩ c 0 slices_S1000x2048_o0_0_S1000x128 rfl)
  | ⟨1, hK⟩ =>
    exact (outV_layer_1 x0 x1 x2 x3 x4 x5 x6 x7 x8 x9 r c).trans
      (layer_is_fc3 x0 x1 x2 x3 x4 x5 x6 x7 x8 x9 W1 h3 h4 r ⟨1, hK⟩ c 128 slices_S1000x2048_o0_128_S1000x128 rfl)
  | ⟨2, hK⟩ =>
    exact (outV_layer_2 x0 x1 x2 x3 x4 x5 x6 x7 x8 x9 r c).trans
      (layer_is_fc3 x0 x1 x2 x3 x4 x5 x6 x7 x8 x9 W1 h3 h4 r ⟨2, hK⟩ c 256 slices_S1000x2048_o0_256_S1000x128 rfl)
  | ⟨3, hK⟩ =>
    exact (outV_layer_3 x0 x1 x2 x3 x4 x5 x6 x7 x8 x9 r c).trans
      (layer_is_fc3 x0 x1 x2 x3 x4 x5 x6 x7 x8 x9 W1 h3 h4 r ⟨3, hK⟩ c 384 slices_S1000x2048_o0_384_S1000x128 rfl)
  | ⟨4, hK⟩ =>
    exact (outV_layer_4 x0 x1 x2 x3 x4 x5 x6 x7 x8 x9 r c).trans
      (layer_is_fc3 x0 x1 x2 x3 x4 x5 x6 x7 x8 x9 W1 h3 h4 r ⟨4, hK⟩ c 512 slices_S1000x2048_o0_512_S1000x128 rfl)
  | ⟨5, hK⟩ =>
    exact (outV_layer_5 x0 x1 x2 x3 x4 x5 x6 x7 x8 x9 r c).trans
      (layer_is_fc3 x0 x1 x2 x3 x4 x5 x6 x7 x8 x9 W1 h3 h4 r ⟨5, hK⟩ c 640 slices_S1000x2048_o0_640_S1000x128 rfl)
  | ⟨6, hK⟩ =>
    exact (outV_layer_6 x0 x1 x2 x3 x4 x5 x6 x7 x8 x9 r c).trans
      (layer_is_fc3 x0 x1 x2 x3 x4 x5 x6 x7 x8 x9 W1 h3 h4 r ⟨6, hK⟩ c 768 slices_S1000x2048_o0_768_S1000x128 rfl)
  | ⟨7, hK⟩ =>
    exact (outV_layer_7 x0 x1 x2 x3 x4 x5 x6 x7 x8 x9 r c).trans
      (layer_is_fc3 x0 x1 x2 x3 x4 x5 x6 x7 x8 x9 W1 h3 h4 r ⟨7, hK⟩ c 896 slices_S1000x2048_o0_896_S1000x128 rfl)
  | ⟨8, hK⟩ =>
    exact (outV_layer_8 x0 x1 x2 x3 x4 x5 x6 x7 x8 x9 r c).trans
      (layer_is_fc3 x0 x1 x2 x3 x4 x5 x6 x7 x8 x9 W1 h3 h4 r ⟨8, hK⟩ c 1024 slices_S1000x2048_o0_1024_S1000x128 rfl)
  | ⟨9, hK⟩ =>
    exact (outV_layer_9 x0 x1 x2 x3 x4 x5 x6 x7 x8 x9 r c).trans
      (layer_is_fc3 x0 x1 x2 x3 x4 x5 x6 x7 x8 x9 W1 h3 h4 r ⟨9, hK⟩ c 1152 slices_S1000x2048_o0_1152_S1000x128 rfl)
  | ⟨10, hK⟩ =>
    exact (outV_layer_10 x0 x1 x2 x3 x4 x5 x6 x7 x8 x9 r c).trans
      (layer_is_fc3 x0 x1 x2 x3 x4 x5 x6 x7 x8 x9 W1 h3 h4 r ⟨10, hK⟩ c 1280 slices_S1000x2048_o0_1280_S1000x128 rfl)
  | ⟨11, hK⟩ =>
    exact (outV_layer_11 x0 x1 x2 x3 x4 x5 x6 x7 x8 x9 r c).trans
      (layer_is_fc3 x0 x1 x2 x3 x4 x5 x6 x7 x8 x9 W1 h3 h4 r ⟨11, hK⟩ c 1408 slices_S1000x2048_o0_1408_S1000x128 rfl)
  | ⟨12, hK⟩ =>
    exact (outV_layer_12 x0 x1 x2 x3 x4 x5 x6 x7 x8 x9 r c).trans
      (layer_is_fc3 x0 x1 x2 x3 x4 x5 x6 x7 x8 x9 W1 h3 h4 r ⟨12, hK⟩ c 1536 slices_S1000x2048_o0_1536_S1000x128 rfl)
  | ⟨13, hK⟩ =>
    exact (outV_layer_13 x0 x1 x2 x3 x4 x5 x6 x7 x8 x9 r c).trans
      (layer_is_fc3 x0 x1 x2 x3 x4 x5 x6 x7 x8 x9 W1 h3 h4 r ⟨13, hK⟩ c 1664 slices_S1000x2048_o0_1664_S1000x128 rfl)
  | ⟨14, hK⟩ =>
    exact (outV_layer_14 x0 x1 x2 x3 x4 x5 x6 x7 x8 x9 r c).trans
      (layer_is_fc3 x0 x1 x2 x3 x4 x5 x6 x7 x8 x9 W1 h3 h4 r ⟨14, hK⟩ c 1792 slices_S1000x2048_o0_1792_S1000x128 rfl)
  | ⟨15, hK⟩ =>
    exact (outV_layer_15 x0 x1 x2 x3 x4 x5 x6 x7 x8 x9 r c).trans
      (layer_is_fc3 x0 x1 x2 x3 x4 x5 x6 x7 x8 x9 W1 h3 h4 r ⟨15, hK⟩ c 1920 slices_S1000x2048_o0_1920_S1000x128 rfl)
  | ⟨n + 16, hK⟩ => exact absurd hK (by omega)

end Cert.KernelIdeal.Body

end
-- ==== Proof.RefSide.lean ====
/-
  The reference program's two results are the specification's arrays, index by index over the extended reals.

  Each stage of the reference is read at one index and identified with the specification's function of the same
  name: the decoded coordinates `rel` (a dense layer on a row's first 32 entries, then `tanh`), their re-tiling
  from 48 columns per point to 3 columns per (point, neighbour) pair — flat position `3 q + d` of row-major order is
  row `q / 16`, column `3 (q % 16) + d` —, the 131-column first-layer input `cat` (three coordinates, then the
  point's 128 features repeated for each of its 16 neighbours), and the three dense layers with `max · 0`.
-/
import proofs.«155941_j4294967296690_2_alg».proof.Proof.Gen.ReferenceIdeal.Read
import proofs.«155941_j4294967296690_2_alg».proof.Proof.Spec

noncomputable section

open scoped BigOperators

namespace Cert.ReferenceIdeal.RefSide

open Cert.ReferenceIdeal Cert.ReferenceIdeal.Read Idealize.ShloMosaic Idealize.ShloMosaic.TcCoe Idealize.ShloMosaic.ValueIdx

/-- The `tanh` stage at row `p`, column `j` is the decoded coordinate `rel j` of point `p`: the contraction over the
    row's first 32 entries against `Wn`, plus the bias, under `tanh`. -/
theorem rel_stage (x0 : (⟨S50000x160, .f32⟩ : BufTy).Contents (Elt Ideal)) (x1 : (⟨S32x48, .f32⟩ : BufTy).Contents (Elt Ideal))
    (x2 : (⟨S48, .f32⟩ : BufTy).Contents (Elt Ideal)) (p : Fin 50000) (j : Fin 48) :
    val_main_v7 (F := Ideal) x0 x1 x2 (ix2 p j) = Cert.Spec.rel x1 x2 (Cert.Spec.row x0 p) j := by
  rw [val_main_v7_apply, val_main_v6_apply, val_main_v3_apply, val_main_v5_apply, val_main_v4_apply,
    Ideal.hostUnary_tanh_def, Ideal.addf_def]
  unfold Cert.Spec.rel Cert.Spec.dense Cert.Spec.row
  refine congrArg Ideal.tanh (congrArg₂ (· + ·) (Finset.sum_congr rfl fun k _ => ?_) ?_)
  · rw [val_main_v0_apply]
    have e1 : idx_main_v0 (lidx_main_v3 (ix2 p j) k) = ix2 p (Cert.Spec.ptIdx k) :=
      funext fun a => Fin.ext (by match a with | ⟨0, _⟩ => rfl | ⟨1, _⟩ => rfl)
    have e2 : ridx_main_v3 (ix2 p j) k = ix2 k j :=
      funext fun a => Fin.ext (by match a with | ⟨0, _⟩ => rfl | ⟨1, _⟩ => rfl)
    rw [e1, e2]
  · exact congrArg x2 (funext fun a => Fin.ext (by match a with | ⟨0, _⟩ => rfl))

/-- The re-tiled coordinates at output row `q`, coordinate `d`: flat position `3 q + d` of the `[50000, 48]` array is
    row `q / 16`, column `3 (q % 16) + d`, so the entry is coordinate `d` of neighbour `q % 16` of point `q / 16`. -/
theorem v8_stage (x0 : (⟨S50000x160, .f32⟩ : BufTy).Contents (Elt Ideal)) (x1 : (⟨S32x48, .f32⟩ : BufTy).Contents (Elt Ideal))
    (x2 : (⟨S48, .f32⟩ : BufTy).Contents (Elt Ideal)) (q : Fin 800000) (d : Fin 3) :
    val_main_v8 (F := Ideal) x0 x1 x2 (ix2 q d)
      = Cert.Spec.rel x1 x2 (Cert.Spec.row x0 (Cert.Spec.ptOf q)) (Cert.Spec.relIdx (Cert.Spec.nbOf q) d) := by
  rw [val_main_v8_apply]
  have e : idx_main_v8 (ix2 q d) = ix2 (Cert.Spec.ptOf q) (Cert.Spec.relIdx (Cert.Spec.nbOf q) d) :=
    funext fun a => Fin.ext (by
      have hq := q.isLt
      have hd := d.isLt
      match a with
      | ⟨0, _⟩ => show (q.val * 3 + d.val) / 48 = q.val / 16; omega
      | ⟨1, _⟩ => show (q.val * 3 + d.val) % 48 = 3 * (q.val % 16) + d.val; omega)
  rw [e]
  exact rel_stage x0 x1 x2 _ _

/-- The reference's output points are the specification's: the re-tiled coordinates times the radius. -/
theorem pts_eq (x0 : (⟨S50000x160, .f32⟩ : BufTy).Contents (Elt Ideal)) (x1 : (⟨S32x48, .f32⟩ : BufTy).Contents (Elt Ideal))
    (x2 : (⟨S48, .f32⟩ : BufTy).Contents (Elt Ideal)) :
    val_main_v30 (F := Ideal) x0 x1 x2 = Cert.Spec.Pts x0 x1 x2 := by
  funext i
  obtain ⟨q, e, rfl⟩ : ∃ (q : Fin 800000) (e : Fin 3), i = ix2 q e := ⟨i 0, i 1, eq_ix2 i⟩
  rw [val_main_v30_apply, val_main_v29_apply, val_main_cst_apply, v8_stage, Ideal.mulf_def, Ideal.ofBits_def]
  rfl

/-- The repeated features at output row `q`, column `f`: flat position `128 q + f` of the `[50000, 16, 128]` array is
    point `q / 16`, neighbour `q % 16`, feature `f`, and the repetition drops the neighbour; the feature is entry
    `32 + f` of the point's row. -/
theorem feat_stage (x0 : (⟨S50000x160, .f32⟩ : BufTy).Contents (Elt Ideal)) (q : Fin 800000) (f : Fin 128) :
    val_main_v12 (F := Ideal) x0 (ix2 q f) = Cert.Spec.row x0 (Cert.Spec.ptOf q) (Cert.Spec.featIdx f) := by
  rw [val_main_v12_apply, val_main_v11_apply, val_main_v1_apply]
  unfold Cert.Spec.row
  refine congrArg x0 (funext fun a => Fin.ext ?_)
  have hq := q.isLt
  have hf := f.isLt
  match a with
  | ⟨0, _⟩ => show (q.val * 128 + f.val) / 2048 = q.val / 16; omega
  | ⟨1, _⟩ => show 32 + (q.val * 128 + f.val) % 128 = 32 + f.val; omega

/-- The first layer's input at output row `q`, column `j`: a column below 3 falls in the first piece (the re-tiled
    coordinates), a later one in the second (the repeated features) at column `j - 3`. -/
theorem cat_stage (x0 : (⟨S50000x160, .f32⟩ : BufTy).Contents (Elt Ideal)) (x1 : (⟨S32x48, .f32⟩ : BufTy).Contents (Elt Ideal))
    (x2 : (⟨S48, .f32⟩ : BufTy).Contents (Elt Ideal)) (q : Fin 800000) (j : Fin 131) :
    val_main_v13 (F := Ideal) x0 x1 x2 (ix2 q j)
      = Cert.Spec.cat x1 x2 (Cert.Spec.row x0 (Cert.Spec.ptOf q)) (Cert.Spec.nbOf q) j := by
  unfold val_main_v13 Cert.Spec.cat
  by_cases h : j.val < 3
  · rw [dif_pos h]
    refine (concatenate_pair_apply_left (1 : Fin S800000x131.rank) (val_main_v8 (F := Ideal) x0 x1 x2)
      (val_main_v12 (F := Ideal) x0) _ (ix2 q j) rfl (ix2 q (⟨j.val, h⟩ : Fin 3)) (fun b => ?_)).trans ?_
    · match b with
      | ⟨0, _⟩ => rfl
      | ⟨1, _⟩ => rfl
    · exact v8_stage x0 x1 x2 q ⟨j.val, h⟩
  · rw [dif_neg h]
    have hj := j.isLt
    refine (concatenate_pair_apply_right (1 : Fin S800000x131.rank) (val_main_v8 (F := Ideal) x0 x1 x2)
      (val_main_v12 (F := Ideal) x0) _ (ix2 q j) rfl rfl (ix2 q (⟨j.val - 3, by omega⟩ : Fin 128)) (fun b hb => ?_) ?_).trans ?_
    · match b with
      | ⟨0, _⟩ => rfl
      | ⟨1, _⟩ => exact absurd rfl hb
    · show j.val - 3 + 3 = j.val; omega
    · exact feat_stage x0 q ⟨j.val - 3, by omega⟩

/-- The first layer's pre-activation at output row `q`, column `c`: the contraction of the row's 131 inputs against
    `W1`, plus the bias. -/
theorem pre_stage (x0 : (⟨S50000x160, .f32⟩ : BufTy).Contents (Elt Ideal)) (x1 : (⟨S32x48, .f32⟩ : BufTy).Contents (Elt Ideal))
    (x2 : (⟨S48, .f32⟩ : BufTy).Contents (Elt Ideal)) (x3 : (⟨S131x128, .f32⟩ : BufTy).Contents (Elt Ideal))
    (x4 : (⟨S128, .f32⟩ : BufTy).Contents (Elt Ideal)) (q : Fin 800000) (c : Fin 128) :
    val_main_v17 (F := Ideal) x0 x1 x2 x3 x4 (ix2 q c)
      = Cert.Spec.pre x1 x2 x3 x4 (Cert.Spec.row x0 (Cert.Spec.ptOf q)) (Cert.Spec.nbOf q) c := by
  rw [val_main_v17_apply, val_main_v14_apply, val_main_v16_apply, val_main_v15_apply, Ideal.addf_def]
  unfold Cert.Spec.pre Cert.Spec.dense
  refine congrArg₂ (· + ·) (Finset.sum_congr rfl fun k _ => ?_) ?_
  · have e1 : lidx_main_v14 (ix2 q c) k = ix2 q k :=
      funext fun a => Fin.ext (by match a with | ⟨0, _⟩ => rfl | ⟨1, _⟩ => rfl)
    have e2 : ridx_main_v14 (ix2 q c) k = ix2 k c :=
      funext fun a => Fin.ext (by match a with | ⟨0, _⟩ => rfl | ⟨1, _⟩ => rfl)
    rw [e1, e2, cat_stage]
  · exact congrArg x4 (funext fun a => Fin.ext (by match a with | ⟨0, _⟩ => rfl))

/-- The first layer's output: the pre-activation clamped below at zero. -/
theorem h1_stage (x0 : (⟨S50000x160, .f32⟩ : BufTy).Contents (Elt Ideal)) (x1 : (⟨S32x48, .f32⟩ : BufTy).Contents (Elt Ideal))
    (x2 : (⟨S48, .f32⟩ : BufTy).Contents (Elt Ideal)) (x3 : (⟨S131x128, .f32⟩ : BufTy).Contents (Elt Ideal))
    (x4 : (⟨S128, .f32⟩ : BufTy).Contents (Elt Ideal)) (q : Fin 800000) (c : Fin 128) :
    val_main_v18 (F := Ideal) x0 x1 x2 x3 x4 (ix2 q c)
      = Cert.Spec.relu (Cert.Spec.pre x1 x2 x3 x4 (Cert.Spec.row x0 (Cert.Spec.ptOf q)) (Cert.Spec.nbOf q) c) := by
  rw [val_main_v18_apply, val_main_call0_v0_apply, val_main_call0_cst_apply, pre_stage, Ideal.maximumf_def,
    Ideal.ofBits_def]
  rfl

/-- The second layer's output at output row `q`, column `c`: a dense layer on the first layer's 128 outputs, clamped
    below at zero. -/
theorem h2_stage (x0 : (⟨S50000x160, .f32⟩ : BufTy).Contents (Elt Ideal)) (x1 : (⟨S32x48, .f32⟩ : BufTy).Contents (Elt Ideal))
    (x2 : (⟨S48, .f32⟩ : BufTy).Contents (Elt Ideal)) (x3 : (⟨S131x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (q : Fin 800000) (c : Fin 128) :
    val_main_v23 (F := Ideal) x0 x1 x2 x3 x4 x5 x6 (ix2 q c)
      = Cert.Spec.relu (Cert.Spec.dense
          (fun c₁ : Fin 128 => Cert.Spec.relu
            (Cert.Spec.pre x1 x2 x3 x4 (Cert.Spec.row x0 (Cert.Spec.ptOf q)) (Cert.Spec.nbOf q) c₁)) x5 x6 c) := by
  rw [val_main_v23_apply, val_main_call1_v0_apply, val_main_call1_cst_apply, val_main_v22_apply, val_main_v19_apply,
    val_main_v21_apply, val_main_v20_apply, Ideal.maximumf_def, Ideal.addf_def, Ideal.ofBits_def]
  unfold Cert.Spec.dense
  refine congrArg (fun t => max t Cert.Spec.zero) (congrArg₂ (· + ·) (Finset.sum_congr rfl fun k _ => ?_) ?_)
  · have e1 : lidx_main_v19 (ix2 q c) k = ix2 q k :=
      funext fun a => Fin.ext (by match a with | ⟨0, _⟩ => rfl | ⟨1, _⟩ => rfl)
    have e2 : ridx_main_v19 (ix2 q c) k = ix2 k c :=
      funext fun a => Fin.ext (by match a with | ⟨0, _⟩ => rfl | ⟨1, _⟩ => rfl)
    rw [e1, e2, h1_stage]
  · exact congrArg x6 (funext fun a => Fin.ext (by match a with | ⟨0, _⟩ => rfl))

/-- The reference's output features are the specification's: the third dense layer on the second layer's outputs,
    clamped below at zero. -/
theorem fc3_eq (x0 : (⟨S50000x160, .f32⟩ : BufTy).Contents (Elt Ideal)) (x1 : (⟨S32x48, .f32⟩ : BufTy).Contents (Elt Ideal))
    (x2 : (⟨S48, .f32⟩ : BufTy).Contents (Elt Ideal)) (x3 : (⟨S131x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) :
    val_main_v28 (F := Ideal) x0 x1 x2 x3 x4 x5 x6 x7 x8 = Cert.Spec.Fc3 x0 x1 x2 x3 x4 x5 x6 x7 x8 := by
  funext i
  obtain ⟨q, c, rfl⟩ : ∃ (q : Fin 800000) (c : Fin 64), i = ix2 q c := ⟨i 0, i 1, eq_ix2 i⟩
  rw [val_main_v28_apply, val_main_call2_v0_apply, val_main_call2_cst_apply, val_main_v27_apply, val_main_v24_apply,
    val_main_v26_apply, val_main_v25_apply, Ideal.maximumf_def, Ideal.addf_def, Ideal.ofBits_def]
  show _ = Cert.Spec.fc3 x1 x2 x3 x4 x5 x6 x7 x8 (Cert.Spec.row x0 (Cert.Spec.ptOf q)) (Cert.Spec.nbOf q) c
  unfold Cert.Spec.fc3 Cert.Spec.tower
  show _ = max (Cert.Spec.dense _ x7 x8 c) Cert.Spec.zero
  unfold Cert.Spec.dense
  refine congrArg (fun t => max t Cert.Spec.zero) (congrArg₂ (· + ·) (Finset.sum_congr rfl fun k _ => ?_) ?_)
  · have e1 : lidx_main_v24 (ix2 q c) k = ix2 q k :=
      funext fun a => Fin.ext (by match a with | ⟨0, _⟩ => rfl | ⟨1, _⟩ => rfl)
    have e2 : ridx_main_v24 (ix2 q c) k = ix2 k c :=
      funext fun a => Fin.ext (by match a with | ⟨0, _⟩ => rfl | ⟨1, _⟩ => rfl)
    rw [e1, e2, h2_stage]
    rfl
  · exact congrArg x8 (funext fun a => Fin.ext (by match a with | ⟨0, _⟩ => rfl))

end Cert.ReferenceIdeal.RefSide

end
-- ==== Proof.Runs.lean ====
/-
  The two runs, with their results named as the specification's arrays.

  The kernel program: its one region leaves, in the two output arrays, one block per grid point, and each block is the
  specification on the block's 1000 points (the body); the blocks cover the arrays (the grid); the host lines after
  the region re-lay `[50000, 1024]` as `[800000, 64]` and `[50000, 48]` as `[800000, 3]` row-major, which sends row
  `q = 16 p + k`, column `c` to row `p`, column `64 k + c` (resp. `3 k + d`): the pair (point `p`, neighbour `k`).
  The reference program's three results are the same arrays by its own operations read one at a time.
  The third result, each point's number repeated 16 times, is one integer term in both programs.
-/
import proofs.«155941_j4294967296690_2_alg».proof.Defs
import proofs.«155941_j4294967296690_2_alg».proof.Proof.Gen.Kernel.Frame
import proofs.«155941_j4294967296690_2_alg».proof.Proof.Gen.KernelIdeal.Frame
import proofs.«155941_j4294967296690_2_alg».proof.Proof.Gen.ReferenceIdeal.Run
import proofs.«155941_j4294967296690_2_alg».proof.Proof.Gen.ReferenceIdeal.Read
import proofs.«155941_j4294967296690_2_alg».proof.Proof.Gen.Pre_finite_inputs
import proofs.«155941_j4294967296690_2_alg».proof.Proof.Blocks
import proofs.«155941_j4294967296690_2_alg».proof.Proof.BodyFc3
import proofs.«155941_j4294967296690_2_alg».proof.Proof.RefSide

noncomputable section

namespace Cert.Proof.Runs

open Idealize.ShloMosaic Idealize.ShloMosaic.TcCoe Idealize.SL.Sem Idealize.ShloMosaic.ValueIdx

/-- Two facts about every execution of one program from one state hold together. -/
theorem θ_and {nD : Nat} {τ : Topo} {sig : RefSig} {Val : EltTy → Type} {Λ : Labels}
    (defs : Defs nD τ sig Val Λ) (p : (c : Thread nD τ) → Prog (TpuEff nD τ sig Val Λ c.2) PUnit) (s : MemSt nD τ sig Val)
    {Q Q' : PUnit × MemSt nD τ sig Val → Prop} (h : θ_run defs p s Q) (h' : θ_run defs p s Q') :
    θ_run defs p s (fun r => Q r ∧ Q' r) := by
  have a : MeshRun defs (fun m' => Q (⟨⟩, m')) (load p s) := h
  have b : MeshRun defs (fun m' => Q' (⟨⟩, m')) (load p s) := h'
  exact (show MeshRun defs (fun m' => Q (⟨⟩, m') ∧ Q' (⟨⟩, m')) (load p s) from
    ⟨fun t ht hf => ⟨a.post t ht hf, b.post t ht hf⟩, a.progress, a.fair⟩)

section Kernel

open Cert.KernelIdeal Cert.KernelIdeal.Gen

variable (X : Cert.Spec.Mat 50000 160) (Wn : Cert.Spec.Mat 32 48) (bn : Cert.Spec.Vct 48) (W1 : Cert.Spec.Mat 131 128)
  (b1 : Cert.Spec.Vct 128) (W2 : Cert.Spec.Mat 128 128) (b2 : Cert.Spec.Vct 128) (W3 : Cert.Spec.Mat 128 64) (b3 : Cert.Spec.Vct 64)

theorem fc3_congr (p p' : Fin 50000) (k k' : Fin 16) (c c' : Fin 64) (hp : p.val = p'.val) (hk : k.val = k'.val) (hc : c.val = c'.val) :
    Cert.Spec.fc3 Wn bn W1 b1 W2 b2 W3 b3 (Cert.Spec.row X p) k c = Cert.Spec.fc3 Wn bn W1 b1 W2 b2 W3 b3 (Cert.Spec.row X p') k' c' := by
  obtain rfl := Fin.ext hp; obtain rfl := Fin.ext hk; obtain rfl := Fin.ext hc; rfl

theorem rel_congr (p p' : Fin 50000) (j j' : Fin 48) (hp : p.val = p'.val) (hj : j.val = j'.val) :
    Cert.Spec.rel Wn bn (Cert.Spec.row X p) j = Cert.Spec.rel Wn bn (Cert.Spec.row X p') j' := by
  obtain rfl := Fin.ext hp; obtain rfl := Fin.ext hj; rfl

/-- The feature output, re-laid row-major as `[800000, 64]`, is the specification's array. -/
theorem fc3_result :
    shapeCast S800000x64 (Cert.KernelIdeal.Blocks.Out10 X Wn bn W1 b1 W2 b2 W3 b3) shapeCasts_S50000x1024_S800000x64
      = Cert.Spec.Fc3 X Wn bn W1 b1 W2 b2 W3 b3 := by
  funext i
  obtain ⟨q, e, rfl⟩ : ∃ (q : Fin 800000) (e : Fin 64), i = ix2 q e := ⟨i 0, i 1, eq_ix2 i⟩
  have hq := q.isLt; have he := e.isLt
  rw [Cert.KernelIdeal.HostSide.reshape_1024_64_apply]
  exact fc3_congr X Wn bn W1 b1 W2 b2 W3 b3 _ _ _ _ _ _ (by show q.val / 16 = q.val / 16; rfl)
    (by show (64 * (q.val % 16) + e.val) / 64 = q.val % 16; omega) (by show (64 * (q.val % 16) + e.val) % 64 = e.val; omega)

/-- The point output, re-laid row-major as `[800000, 3]`, is the specification's array. -/
theorem pts_result :
    shapeCast S800000x3 (Cert.KernelIdeal.Blocks.Out11 X Wn bn) shapeCasts_S50000x48_S800000x3 = Cert.Spec.Pts X Wn bn := by
  funext i
  obtain ⟨q, d, rfl⟩ : ∃ (q : Fin 800000) (d : Fin 3), i = ix2 q d := ⟨i 0, i 1, eq_ix2 i⟩
  have hq := q.isLt; have hd := d.isLt
  rw [Cert.KernelIdeal.HostSide.reshape_48_3_apply]
  exact congrArg (· * Cert.Spec.quarter) (rel_congr X Wn bn _ _ _ _ (by show q.val / 16 = q.val / 16; rfl)
    (by show 3 * (q.val % 16) + d.val = 3 * (q.val % 16) + d.val; rfl))

/-- Each point's number, repeated once a neighbour: the third result of both programs. -/
abbrev batch (c : Dev nD) : Buf (Elt Ideal) ((c.tc : Thread nD τ).loc main_v14) :=
  shapeCast S800000 (broadcastInDim S50000x16 ![0] bcast_S50000_S50000x16_0 (iotaInDim S50000 32 0)) shapeCasts_S50000x16_S800000

variable (m : (ℓ : Loc nD τ sig) → Buf (Elt Ideal) ℓ) (ρ : Dev nD → PrngReg)

/-- Every execution of the idealized kernel program ends with its three results at the specification's arrays. -/
theorem kernel_run :
    θ_run (defs (F := Ideal)) (onTc (τ := τ) (main (F := Ideal))) ⟨m, fun _ => 0, ρ⟩ (fun r => ∀ c : Dev nD,
      r.2.mem ((c.tc : Thread nD τ).loc main_v11)
          = Cert.Spec.Pts (m ((c.tc : Thread nD τ).loc main_arg0)) (m ((c.tc : Thread nD τ).loc main_arg1)) (m ((c.tc : Thread nD τ).loc main_arg2))
      ∧ r.2.mem ((c.tc : Thread nD τ).loc main_v10)
          = Cert.Spec.Fc3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v14)
          = batch c) :=
  (θ_run defs _ _).mono (fun r h c => ⟨
      ((h c).2 main_v11 (Pipeline.mem_restRefs_of main_v11 (by decide) (by decide))).trans
        ((Cert.KernelIdeal.HostSide.tail_main_v11_eq m c).trans
          ((congrArg (fun A : S50000x48.Idx → EReal => shapeCast S800000x3 A shapeCasts_S50000x48_S800000x3)
            (Cert.KernelIdeal.Blocks.final11 m c Cert.KernelIdeal.BodyIn.out11_apply)).trans (pts_result _ _ _))),
      ((h c).2 main_v10 (Pipeline.mem_restRefs_of main_v10 (by decide) (by decide))).trans
        ((Cert.KernelIdeal.HostSide.tail_main_v10_eq m c).trans
          ((congrArg (fun A : S50000x1024.Idx → EReal => shapeCast S800000x64 A shapeCasts_S50000x1024_S800000x64)
            (Cert.KernelIdeal.Blocks.final10 m c Cert.KernelIdeal.Body.out10_apply)).trans (fc3_result _ _ _ _ _ _ _ _ _))),
      ((h c).2 main_v14 (Pipeline.mem_restRefs_of main_v14 (by decide) (by decide))).trans
        (Cert.KernelIdeal.HostSide.tail_main_v14_eq m c)⟩) (run_main m ρ)

end Kernel

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the nine arguments both programs end with the specification's point array, feature array
    and repeated point numbers. -/
theorem algebraic : Cert.algebraic_KernelIdeal_ReferenceIdeal := by
  intro m ρ m' ρ' _ hagree
  refine ⟨fun c => Cert.Spec.Pts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.Fc3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => batch c, ?_, ?_⟩
  · exact (θ_run Cert.KernelIdeal.defs _ _).mono (fun r h c => ⟨(h.1 c).1, (h.1 c).2.1, (h.1 c).2.2, h.2 c⟩)
      (θ_and _ _ _ (kernel_run m ρ) (Cert.KernelIdeal.Gen.frame m ρ))
  · refine (θ_run Cert.ReferenceIdeal.defs _ _).mono (fun r h c => ?_) (Cert.ReferenceIdeal.Value.run (F := Ideal) m' ρ')
    obtain ⟨h30, h28, h10, hargs⟩ := h c
    obtain ⟨a0, a1, a2, a3, a4, a5, a6, a7, a8⟩ := hagree c
    refine ⟨?_, ?_, ?_, hargs⟩
    · exact h30.trans ((Cert.ReferenceIdeal.Read.val_main_v30_eq _ _ _).trans
        ((Cert.ReferenceIdeal.RefSide.pts_eq _ _ _).trans (by rw [a0, a1, a2])))
    · exact h28.trans ((Cert.ReferenceIdeal.Read.val_main_v28_eq _ _ _ _ _ _ _ _ _).trans
        ((Cert.ReferenceIdeal.RefSide.fc3_eq _ _ _ _ _ _ _ _ _).trans (by rw [a0, a1, a2, a3, a4, a5, a6, a7, a8])))
    · exact h10.trans rfl

end Cert.Proof.Runs

end
-- ==== Proof.lean ====
/-
  A point-cloud decoder layer: 50000 points, each a row of 160 features. The first 32 features of a point are decoded,
  by a dense layer and `tanh`, into the relative coordinates of 16 neighbours (48 numbers); scaled by ¼ these are the
  output points. Each pair (point, neighbour) then passes a three-layer perceptron, `max · 0` after each layer, on the
  131-vector made of the neighbour's three coordinates and the point's other 128 features, giving 64 output features.
  The third output repeats each point's number 16 times.

  The reference forms the 800000 × 131 matrix of all pairs and multiplies. The kernel works on blocks of 1000 points
  and never forms it: the features' product with the last 128 rows of the first matrix is computed once a point and
  shared by its 16 neighbours, and the 16 products of three coordinates with the first three rows are one product of
  the 48 coordinates with a block-diagonal 48 × 2048 matrix; the results are stored with a point's 16 neighbours side by
  side in one row, which a row-major re-laying turns into the reference's one row a pair.

  Over the extended reals, where every change of float format is the identity, the two are equal entry by entry:
  the off-diagonal terms of the block-diagonal product are products with zero and vanish, and the reference's sum over
  131 indices splits into its first three and its last 128 terms (Proof/Algebra.lean); everything after the first
  layer's pre-activation is the same function on both sides. No step needs a finite entry, so the precondition is
  never opened. The kernel's idealization rewrote no operation, so that conjunct is `True`.

  Modules: Spec (the mathematics), Algebra (the law), RefSide (the reference's results are the specification),
  Body / BodyIn / BodyOut / BodyFc3 (one grid point's blocks are the specification), HostSide (the host operations
  around the region), Blocks (the blocks cover the output arrays), Runs (the two runs and the claims).
-/
import proofs.«155941_j4294967296690_2_alg».proof.Defs
import proofs.«155941_j4294967296690_2_alg».proof.Proof.Gen.Kernel
import proofs.«155941_j4294967296690_2_alg».proof.Proof.Gen.Kernel.Skeleton
import proofs.«155941_j4294967296690_2_alg».proof.Proof.Gen.Kernel.Launch
import proofs.«155941_j4294967296690_2_alg».proof.Proof.Gen.Kernel.Points
import proofs.«155941_j4294967296690_2_alg».proof.Proof.Gen.Kernel.Frame
import proofs.«155941_j4294967296690_2_alg».proof.Proof.Gen.KernelIdeal
import proofs.«155941_j4294967296690_2_alg».proof.Proof.Gen.KernelIdeal.Skeleton
import proofs.«155941_j4294967296690_2_alg».proof.Proof.Gen.KernelIdeal.Launch
import proofs.«155941_j4294967296690_2_alg».proof.Proof.Gen.KernelIdeal.Points
import proofs.«155941_j4294967296690_2_alg».proof.Proof.Gen.KernelIdeal.Frame
import proofs.«155941_j4294967296690_2_alg».proof.Proof.Gen.ReferenceIdeal
import proofs.«155941_j4294967296690_2_alg».proof.Proof.Gen.Pre_finite_inputs
import proofs.«155941_j4294967296690_2_alg».proof.Proof.Gen.ReferenceIdeal.Run
import proofs.«155941_j4294967296690_2_alg».proof.Proof.Gen.ReferenceIdeal.Read
import proofs.«155941_j4294967296690_2_alg».proof.Proof.Runs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Runs.frame_k, Cert.Proof.Runs.frame_ki, Cert.Proof.Runs.frame_ri, trivial, Cert.Proof.Runs.algebraic⟩

end Cert.Proof

end
